-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S257x128 : S_.BroadcastsInDim S257x128 (![] : Fin 0 → Fin S257x128.rank)
  reducesTo_S257x128_S_d0_1 : S257x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S257x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S257x128 .f32 := Host.absf main_arg8
  let main_cst_12 : FVec F S_ .f32 := constant S_ .f32 0x7F800000#32
  let main_v35 : FVec F S257x128 .f32 := broadcastInDim S257x128 ![] bcast_S_S257x128 main_cst_12
  let main_v36 : IVec S257x128 1 := cmpf .olt main_v34 main_v35
  let main_c_13 : IVec S_ 1 := constantI S_ 1 1#1
  let main_v37 : IVec S_ 1 := (fun x v => Host.reduce IntOp.andi x v reducesTo_S257x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S129x128 1) : IVec S_ 1 :=
  let main_c_5 : IVec S_ 1 := constantI S_ 1 1#1
  let main_v17 : IVec S_ 1 := (fun x v => Host.reduce IntOp.andi x v reducesTo_S129x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000 .f32) (main_arg2 : FVec F S50000 .f32) (main_arg3 : IVec S2x800000 32) (main_arg4 : FVec F S129x128 .f32) (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S129x128 .f32 := Host.absf main_arg4
  let main_cst_4 : FVec F S_ .f32 := constant S_ .f32 0x7F800000#32
  let main_v15 : FVec F S129x128 .f32 := broadcastInDim S129x128 ![] bcast_S_S129x128 main_cst_4
  let main_v16 : IVec S129x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x2 : Shape := ⟨2, ![50000, 2]⟩
abbrev S1x128 : Shape := ⟨2, ![1, 128]⟩
abbrev S1x1 : Shape := ⟨2, ![1, 1]⟩
abbrev S5000x128 : Shape := ⟨2, ![5000, 128]⟩
abbrev S5000x2 : Shape := ⟨2, ![5000, 2]⟩
abbrev S5000x1 : Shape := ⟨2, ![5000, 1]⟩

abbrev nBuf : Space → Nat
  | .hbm => 60
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S50000, .f32⟩
  | .hbm, ⟨3, _⟩ => ⟨S2x800000, .i32⟩
  | .hbm, ⟨4, _⟩ => ⟨S129x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S50000x1, .f32⟩
  | .hbm, ⟨45, _⟩ => ⟨S50000x1, .f32⟩
  | .hbm, ⟨46, _⟩ => ⟨S50000x2, .f32⟩
  | .hbm, ⟨47, _⟩ => ⟨S128x128, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x1, .f32⟩
  | .hbm, ⟨57, _⟩ => ⟨S50000x1, .f32⟩
  | .hbm, ⟨58, _⟩ => ⟨S_, .f32⟩
  | .hbm, ⟨59, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .f32⟩
  | .local _ .vmem, ⟨5, _⟩ => ⟨S5000x2, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S5000x1, .f32⟩
  | .local _ .vmem, ⟨20, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S5000x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  slices_S129x128_S128x128_0_0 : S129x128.Slices ![0, 0] S128x128
  slices_S129x128_S1x128_128_0 : S129x128.Slices ![128, 0] S1x128
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x1.size a ≤ S50000x1.size a
  hwx0_16 : ∀ i : grid0.Coords, EltTy.bits .f32 = 32 ∨ (Rect.block (s := S50000x1) S5000x1.size (cc0_transform_16 i) (hinb0_16 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v35) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S5000x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S50000x1 : Shape := ⟨2, ![50000, 1]⟩
abbrev S50000x129 : Shape := ⟨2, ![50000, 129]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x129 : Shape := ⟨2, ![800000, 129]⟩
abbrev S1x128 : Shape := ⟨2, ![1, 128]⟩
abbrev S50000x257 : Shape := ⟨2, ![50000, 257]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S50000, .f32⟩
  | .hbm, ⟨3, _⟩ => ⟨S2x800000, .i32⟩
  | .hbm, ⟨4, _⟩ => ⟨S129x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S50000x1, .f32⟩
  | .hbm, ⟨15, _⟩ => ⟨S50000x129, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x129, .f32⟩
  | .hbm, ⟨29, _⟩ => ⟨S_, .f32⟩
  | .hbm, ⟨30, _⟩ => ⟨S50000x129, .f32⟩
  | .hbm, ⟨31, _⟩ => ⟨S800000x1, .i32⟩
  | .hbm, ⟨32, _⟩ => ⟨S50000x129, .f32⟩
  | .hbm, ⟨33, _⟩ => ⟨S50000x129, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x257, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .i1⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S_, .f32⟩
  | .hbm, ⟨68, _⟩ => ⟨S50000x128, .f32⟩
  | .hbm, ⟨69, _⟩ => ⟨S50000x128, .i1⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x1, .f32⟩
  | .hbm, ⟨75, _⟩ => ⟨S1x1, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  concatenates_S50000x128_S50000x1_S50000x129_d1 : Shape.Concatenates [S50000x128, S50000x1] S50000x129 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x129 : S_.BroadcastsInDim S50000x129 (![] : Fin 0 → Fin S50000x129.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S50000x128_S50000x129_S50000x257_d1 : Shape.Concatenates [S50000x128, S50000x129] S50000x257 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S50000x129_S129x128_S50000x128_1_0_0_1_n_n_wf : DotDims.WF S50000x129 S129x128 S50000x128 [1] [0] [0] [1] [] []
  dot_S50000x128_S128x128_S50000x128_1_0_0_1_n_n_wf : DotDims.WF S50000x128 S128x128 S50000x128 [1] [0] [0] [1] [] []
  dot_S50000x257_S257x128_S50000x128_1_0_0_1_n_n_wf : DotDims.WF S50000x257 S257x128 S50000x128 [1] [0] [0] [1] [] []
  dot_S50000x128_S128x1_S50000x1_1_0_0_1_n_n_wf : DotDims.WF S50000x128 S128x1 S50000x1 [1] [0] [0] [1] [] []

variable [Facts₀]

def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x257_S257x128_S50000x128_1_0_0_1_n_n : DotDims S50000x257 S257x128 S50000x128 where
  lhsContracting := [1]
  rhsContracting := [0]
  lhsNonContracting := [0]
  rhsNonContracting := [1]
  lhsBatch := []
  rhsBatch := []
  wf := dot_S50000x257_S257x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.Spec.lean ====
/-
  The mathematics both programs compute, stated once over plain extended reals.

  A node n of the graph has a feature row x[n, ·] of 128 entries and a time t[n]. Every edge e sends its source
  node's row and time to its destination node, where they are summed (`aggCol`: the sum, over the edges landing
  on n, of a column read at the edge's source; sources are clamped into the table, destinations outside it are
  dropped). The node's output is then a chain of five affine maps with pointwise nonlinearities (`node`):
    h1 = relu ((x + aggx) W1x + (t + aggt) W1t + b1)          (W1 split into its first 128 rows and its last)
    h2 = relu (tanh (h1 W2 + b2))
    y1 = leaky (h2 P1h + x P1x + t P1t + pb1)                 (P1 split into rows 0..127, 128..255 and 256)
    y2 = leaky (y1 P2 + pb2)
    out = y2 P3 + pb3
  `nodeR` is the same map with the 129 and 257 wide contractions left whole, as a program that concatenates
  (x, t) and (h2, x, t) computes it; `nodeR_eq_node` splits those sums. Only commutativity and associativity of
  addition on the extended reals are used, so no finiteness is needed.
-/
import Idealize.ShloMosaic.PureOps.Ideal
import Idealize.ShloMosaic.Lib.ValueIdx
import proofs.«132804_j17411797418333_2_alg».proof.Proof.LibRowGather
import proofs.«132804_j17411797418333_2_alg».proof.Proof.LibRowScatterAdd

noncomputable section

open scoped BigOperators

namespace Cert.Gin

open Idealize.ShloMosaic Idealize.ShloMosaic.ValueIdx

/-- The float zero word and the leaky slope word (0.2 rounded to f32), read as extended reals. -/
abbrev z0 : EReal := Ideal.ofBits .f32 0x00000000#32
abbrev slope : EReal := Ideal.ofBits .f32 0x3E4CCCCD#32

/-- max(v, 0). -/
def relu (v : EReal) : EReal := max v z0
/-- v where v ≥ 0, slope · v elsewhere. -/
def leaky (v : EReal) : EReal := Scalar.select (Ideal.cmp .oge v z0) v (slope * v)

/-- The start indices of the edges' sources: entry e of row 0 of the edge list, a negative entry moved up by the
    number of nodes. -/
def srcArr (ei : (⟨2, ![2, 800000]⟩ : Shape).Idx → BitVec 32) : (⟨2, ![800000, 1]⟩ : Shape).Idx → BitVec 32 :=
  fun j => Scalar.select (IntOp.cmpi .slt (ei (ix2 0 ⟨(j 0).val, idx2_lt0 j⟩)) 0#32)
    (IntOp.addi (ei (ix2 0 ⟨(j 0).val, idx2_lt0 j⟩)) 50000#32) (ei (ix2 0 ⟨(j 0).val, idx2_lt0 j⟩))
/-- The start indices of the edges' destinations: entry e of row 1 of the edge list. -/
def dstArr (ei : (⟨2, ![2, 800000]⟩ : Shape).Idx → BitVec 32) : (⟨2, ![800000, 1]⟩ : Shape).Idx → BitVec 32 :=
  fun j => ei (ix2 1 ⟨(j 0).val, idx2_lt0 j⟩)

/-- One aggregated column at node n: zero plus the sum, over the edges landing on n, of the column f read at the
    edge's (clamped) source node. -/
def aggCol (src dst : (⟨2, ![800000, 1]⟩ : Shape).Idx → BitVec 32) (f : Fin 50000 → EReal) (n : Fin 50000) : EReal :=
  z0 + ∑ e ∈ Cert.RowScatter.landing 50000 dst n, f (Cert.RowGather.rowOf 50000 (by norm_num) src e)

/-- One node's output from its own row, its aggregated row, its time and aggregated time, and the weights with
    W1 and P1 split by rows. -/
def node (xr ar : Fin 128 → EReal) (t a : EReal)
    (W1x : Fin 128 → Fin 128 → EReal) (W1t b1 : Fin 128 → EReal)
    (W2 : Fin 128 → Fin 128 → EReal) (b2 : Fin 128 → EReal)
    (P1h P1x : Fin 128 → Fin 128 → EReal) (P1t pb1 : Fin 128 → EReal)
    (P2 : Fin 128 → Fin 128 → EReal) (pb2 : Fin 128 → EReal)
    (P3 : Fin 128 → EReal) (pb3 : EReal) : EReal :=
  let h1 : Fin 128 → EReal := fun j => relu (((∑ k : Fin 128, (xr k + ar k) * W1x k j) + (t + a) * W1t j) + b1 j)
  let h2 : Fin 128 → EReal := fun j => relu (Ideal.tanh ((∑ k : Fin 128, h1 k * W2 k j) + b2 j))
  let y1 : Fin 128 → EReal := fun j =>
    leaky (((((∑ k : Fin 128, h2 k * P1h k j) + (∑ k : Fin 128, xr k * P1x k j)) + t * P1t j)) + pb1 j)
  let y2 : Fin 128 → EReal := fun j => leaky ((∑ k : Fin 128, y1 k * P2 k j) + pb2 j)
  (∑ k : Fin 128, y2 k * P3 k) + pb3

/-- The same map with the 129 wide row (x, t) and the 257 wide row (h2, x, t) contracted whole. -/
def nodeR (xt ag : Fin 129 → EReal)
    (W1 : Fin 129 → Fin 128 → EReal) (b1 : Fin 128 → EReal)
    (W2 : Fin 128 → Fin 128 → EReal) (b2 : Fin 128 → EReal)
    (P1 : Fin 257 → Fin 128 → EReal) (pb1 : Fin 128 → EReal)
    (P2 : Fin 128 → Fin 128 → EReal) (pb2 : Fin 128 → EReal)
    (P3 : Fin 128 → EReal) (pb3 : EReal) : EReal :=
  let h1 : Fin 128 → EReal := fun j => relu ((∑ k : Fin 129, (xt k + ag k) * W1 k j) + b1 j)
  let h2 : Fin 128 → EReal := fun j => relu (Ideal.tanh ((∑ k : Fin 128, h1 k * W2 k j) + b2 j))
  let comb : Fin 257 → EReal := fun k => if h : k.val < 128 then h2 ⟨k.val, h⟩ else xt ⟨k.val - 128, by omega⟩
  let y1 : Fin 128 → EReal := fun j => leaky ((∑ k : Fin 257, comb k * P1 k j) + pb1 j)
  let y2 : Fin 128 → EReal := fun j => leaky ((∑ k : Fin 128, y1 k * P2 k j) + pb2 j)
  (∑ k : Fin 128, y2 k * P3 k) + pb3

/-- The output at node n as a function of the thirteen argument arrays that are read. -/
def outAt (x : (⟨2, ![50000, 128]⟩ : Shape).Idx → EReal) (t : (⟨1, ![50000]⟩ : Shape).Idx → EReal)
    (ei : (⟨2, ![2, 800000]⟩ : Shape).Idx → BitVec 32)
    (W1 : (⟨2, ![129, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (P1 : (⟨2, ![257, 128]⟩ : Shape).Idx → EReal) (pb1 : (⟨1, ![128]⟩ : Shape).Idx → EReal)
    (P2 : (⟨2, ![128, 128]⟩ : Shape).Idx → EReal) (pb2 : (⟨1, ![128]⟩ : Shape).Idx → EReal)
    (P3 : (⟨2, ![128, 1]⟩ : Shape).Idx → EReal) (pb3 : (⟨1, ![1]⟩ : Shape).Idx → EReal) (n : Fin 50000) : EReal :=
  node (fun k => x (ix2 n k)) (fun k => aggCol (srcArr ei) (dstArr ei) (fun r => x (ix2 r k)) n)
    (t (ix1 n)) (aggCol (srcArr ei) (dstArr ei) (fun r => t (ix1 r)) n)
    (fun k j => W1 (ix2 ⟨k.val, by omega⟩ j)) (fun j => W1 (ix2 ⟨128, by omega⟩ j)) (fun j => b1 (ix1 j))
    (fun k j => W2 (ix2 k j)) (fun j => b2 (ix1 j))
    (fun k j => P1 (ix2 ⟨k.val, by omega⟩ j)) (fun k j => P1 (ix2 ⟨128 + k.val, by omega⟩ j))
    (fun j => P1 (ix2 ⟨256, by omega⟩ j)) (fun j => pb1 (ix1 j))
    (fun k j => P2 (ix2 k j)) (fun j => pb2 (ix1 j))
    (fun k => P3 (ix2 k 0)) (pb3 (ix1 0))

/-- The whole output array [50000, 1]. -/
def out (x : (⟨2, ![50000, 128]⟩ : Shape).Idx → EReal) (t : (⟨1, ![50000]⟩ : Shape).Idx → EReal)
    (ei : (⟨2, ![2, 800000]⟩ : Shape).Idx → BitVec 32)
    (W1 : (⟨2, ![129, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (P1 : (⟨2, ![257, 128]⟩ : Shape).Idx → EReal) (pb1 : (⟨1, ![128]⟩ : Shape).Idx → EReal)
    (P2 : (⟨2, ![128, 128]⟩ : Shape).Idx → EReal) (pb2 : (⟨1, ![128]⟩ : Shape).Idx → EReal)
    (P3 : (⟨2, ![128, 1]⟩ : Shape).Idx → EReal) (pb3 : (⟨1, ![1]⟩ : Shape).Idx → EReal) :
    (⟨2, ![50000, 1]⟩ : Shape).Idx → EReal :=
  fun j => outAt x t ei W1 b1 W2 b2 P1 pb1 P2 pb2 P3 pb3 ⟨(j 0).val, idx2_lt0 j⟩

theorem out_apply (x : (⟨2, ![50000, 128]⟩ : Shape).Idx → EReal) (t : (⟨1, ![50000]⟩ : Shape).Idx → EReal)
    (ei : (⟨2, ![2, 800000]⟩ : Shape).Idx → BitVec 32)
    (W1 : (⟨2, ![129, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (P1 : (⟨2, ![257, 128]⟩ : Shape).Idx → EReal) (pb1 : (⟨1, ![128]⟩ : Shape).Idx → EReal)
    (P2 : (⟨2, ![128, 128]⟩ : Shape).Idx → EReal) (pb2 : (⟨1, ![128]⟩ : Shape).Idx → EReal)
    (P3 : (⟨2, ![128, 1]⟩ : Shape).Idx → EReal) (pb3 : (⟨1, ![1]⟩ : Shape).Idx → EReal) (n : Fin 50000) (u : Fin 1) :
    out x t ei W1 b1 W2 b2 P1 pb1 P2 pb2 P3 pb3 (ix2 n u) = outAt x t ei W1 b1 W2 b2 P1 pb1 P2 pb2 P3 pb3 n := rfl

end Cert.Gin

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.LibBridgeRead.lean ====
/-
  Host operations of a stacked-weight message network read at an index given by its coordinates.

  Each statement takes one host operation (or a short chain of them) at literal ranks and says which entry of the
  operand the entry at the named coordinates is:
    • a layer of a stack — the slice [1, a, B] of [L, A, B] at offsets (l, o, 0), its unit axis dropped — reads at (k, j)
      the stack at (l, o + k, j); likewise a row of a stack of vectors;
    • the maximum with the broadcast zero literal is the maximum with that literal;
    • three arrays laid side by side along axis 1 read, at a column, the piece that holds the column;
    • two columns laid side by side and flattened interleave their entries; a flat list broadcast to a column reads its entry;
    • 1600000 rows of 64 columns re-read as 800000 rows of 128 put rows 2 p and 2 p + 1 side by side in row p;
    • the wrap of a negative entry by a table height is one function of the 32-bit entry.
-/
import Idealize.ShloMosaic.PureOps.Ideal.Laws
import Idealize.ShloMosaic.Lib.Pipeline.Value
import Idealize.ShloMosaic.Lib.ValueIdx

noncomputable section

open scoped BigOperators

namespace Cert.BridgeRead

open Idealize.ShloMosaic Idealize.ShloMosaic.ValueIdx

variable {α : Type}

/-! ### A layer of a stack -/

/-- Rows o .. o + a − 1 of layer l of a stack [L, A, B]: the slice [1, a, B] at (l, o, 0) with the unit axis dropped reads
    at (k, j) the stack at (l, o + k, j). -/
theorem slice3_drop_apply {L A B a l o : Nat} (W : (⟨3, ![L, A, B]⟩ : Shape).Idx → α)
    (hs : (⟨3, ![L, A, B]⟩ : Shape).Slices ![l, o, 0] ⟨3, ![1, a, B]⟩)
    (hc : (⟨3, ![1, a, B]⟩ : Shape).ShapeCasts ⟨2, ![a, B]⟩) (hl : l < L) (k : Fin a) (ho : o + k.val < A) (j : Fin B) :
    shapeCast ⟨2, ![a, B]⟩ (extractStridedSlice ⟨3, ![1, a, B]⟩ ![l, o, 0] W hs) hc (ix2 k j)
      = W (ix3 ⟨l, hl⟩ ⟨o + k.val, ho⟩ j) := by
  refine (shapeCast_dropUnit_apply ![a, B] _ hc (ix2 k j)).trans ?_
  refine extractStridedSlice_apply ![l, o, 0] W hs _ _ fun ax => ?_
  match ax with
  | ⟨0, _⟩ => rfl
  | ⟨1, _⟩ => rfl
  | ⟨2, _⟩ => show j.val = 0 + j.val; omega

/-- Row l of a stack [L, B] of vectors: the slice [1, B] at (l, 0) with the unit axis dropped reads at j the stack at (l, j). -/
theorem slice2_drop_apply {L B l : Nat} (b : (⟨2, ![L, B]⟩ : Shape).Idx → α)
    (hs : (⟨2, ![L, B]⟩ : Shape).Slices ![l, 0] ⟨2, ![1, B]⟩)
    (hc : (⟨2, ![1, B]⟩ : Shape).ShapeCasts ⟨1, ![B]⟩) (hl : l < L) (j : Fin B) :
    shapeCast ⟨1, ![B]⟩ (extractStridedSlice ⟨2, ![1, B]⟩ ![l, 0] b hs) hc (ix1 j) = b (ix2 ⟨l, hl⟩ j) := by
  refine (shapeCast_dropUnit_apply ![B] _ hc (ix1 j)).trans ?_
  refine extractStridedSlice_apply ![l, 0] b hs _ _ fun ax => ?_
  match ax with
  | ⟨0, _⟩ => rfl
  | ⟨1, _⟩ => show j.val = 0 + j.val; omega

/-! ### Broadcasts -/

/-- A flat list broadcast to a column reads at (p, 0) its entry p. -/
theorem column_bcast_apply {P : Nat} (v : (⟨1, ![P]⟩ : Shape).Idx → α)
    (h : (⟨1, ![P]⟩ : Shape).BroadcastsInDim ⟨2, ![P, 1]⟩ (![0] : Fin 1 → Fin 2)) (p : Fin P) :
    broadcastInDim ⟨2, ![P, 1]⟩ ![0] h v (ix2 p 0) = v (ix1 p) := by
  refine broadcastInDim_apply _ h v (ix2 p 0) (ix1 p) fun ax => ?_
  match ax with
  | ⟨0, _⟩ =>
    show p.val = if P = 1 then 0 else p.val
    have := p.isLt
    split <;> omega

/-- The maximum with the broadcast of the zero literal, at an index. -/
theorem relu_apply {s : Shape} (x : FVec Ideal s .f32)
    (h0 : (⟨0, ![]⟩ : Shape).BroadcastsInDim s (![] : Fin 0 → Fin s.rank)) (i : s.Idx) :
    maximumf x (broadcastInDim s ![] h0 (constant (F := Ideal) ⟨0, ![]⟩ .f32 0x00000000#32)) i
      = max (x i) (Ideal.ofBits .f32 0x00000000#32) := rfl

/-! ### Pieces laid side by side -/

section Concat3
variable {E n₁ n₂ n₃ n : Nat} (x₁ : (⟨2, ![E, n₁]⟩ : Shape).Idx → α) (x₂ : (⟨2, ![E, n₂]⟩ : Shape).Idx → α)
  (x₃ : (⟨2, ![E, n₃]⟩ : Shape).Idx → α)
  (h : Shape.Concatenates [(⟨2, ![E, n₁]⟩ : Shape), ⟨2, ![E, n₂]⟩, ⟨2, ![E, n₃]⟩] ⟨2, ![E, n]⟩ 1)

/-- Three arrays side by side along axis 1, at a column of the first. -/
theorem concat3_apply_fst (p : Fin E) (c : Fin n) (hc : c.val < n₁) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₁ (ix2 p ⟨c.val, hc⟩) := by
  refine concatenate_apply_piece 1 [⟨⟨2, ![E, n₁]⟩, x₁⟩, ⟨⟨2, ![E, n₂]⟩, x₂⟩, ⟨⟨2, ![E, n₃]⟩, x₃⟩] h (ix2 p c) 0 (by show 0 < 3; omega) _ x₁ rfl rfl 0 rfl (ix2 p ⟨c.val, hc⟩) (fun b => ?_) ?_
  · match b with
    | ⟨0, _⟩ => exact fun _ => rfl
    | ⟨1, _⟩ => exact fun hne => absurd rfl hne
  · show 0 + c.val = c.val; omega

/-- Three arrays side by side along axis 1, at a column of the second. -/
theorem concat3_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₂ (ix2 p ⟨c.val - n₁, h2⟩) := by
  refine concatenate_apply_piece 1 [⟨⟨2, ![E, n₁]⟩, x₁⟩, ⟨⟨2, ![E, n₂]⟩, x₂⟩, ⟨⟨2, ![E, n₃]⟩, x₃⟩] h (ix2 p c) 1 (by show 1 < 3; omega) _ x₂ rfl rfl n₁ rfl (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Three arrays side by side along axis 1, at a column of the third. -/
theorem concat3_apply_trd (p : Fin E) (c : Fin n) (h1 : n₁ + n₂ ≤ c.val) (h2 : c.val - (n₁ + n₂) < n₃) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₃ (ix2 p ⟨c.val - (n₁ + n₂), h2⟩) := by
  refine concatenate_apply_piece 1 [⟨⟨2, ![E, n₁]⟩, x₁⟩, ⟨⟨2, ![E, n₂]⟩, x₂⟩, ⟨⟨2, ![E, n₃]⟩, x₃⟩] h (ix2 p c) 2 (by show 2 < 3; omega) _ x₃ rfl rfl (n₁ + n₂) rfl (ix2 p ⟨c.val - (n₁ + n₂), h2⟩) (fun b => ?_) ?_
  · match b with
    | ⟨0, _⟩ => exact fun _ => rfl
    | ⟨1, _⟩ => exact fun hne => absurd rfl hne
  · show n₁ + n₂ + (c.val - (n₁ + n₂)) = c.val; omega

end Concat3

/-! ### Two columns interleaved, and rows re-read in pairs -/

section Concat2
variable {E : Nat} (x₁ x₂ : (⟨2, ![E, 1]⟩ : Shape).Idx → α)
  (h : Shape.Concatenates [(⟨2, ![E, 1]⟩ : Shape), ⟨2, ![E, 1]⟩] ⟨2, ![E, 2]⟩ 1)

/-- Two columns side by side, at column 0: the first. -/
theorem concat2_cols_apply_fst (p : Fin E) :
    concatenate ⟨2, ![E, 2]⟩ 1 [⟨⟨2, ![E, 1]⟩, x₁⟩, ⟨⟨2, ![E, 1]⟩, x₂⟩] h (ix2 p 0) = x₁ (ix2 p 0) := by
  refine concatenate_apply_piece 1 [⟨⟨2, ![E, 1]⟩, x₁⟩, ⟨⟨2, ![E, 1]⟩, x₂⟩] h (ix2 p 0) 0 (by show 0 < 2; omega) _ x₁ rfl rfl 0 rfl
    (ix2 p 0) (fun b => ?_) rfl
  match b with
  | ⟨0, _⟩ => exact fun _ => rfl
  | ⟨1, _⟩ => exact fun hne => absurd rfl hne

/-- Two columns side by side, at column 1: the second. -/
theorem concat2_cols_apply_snd (p : Fin E) :
    concatenate ⟨2, ![E, 2]⟩ 1 [⟨⟨2, ![E, 1]⟩, x₁⟩, ⟨⟨2, ![E, 1]⟩, x₂⟩] h (ix2 p 1) = x₂ (ix2 p 0) := by
  refine concatenate_apply_piece 1 [⟨⟨2, ![E, 1]⟩, x₁⟩, ⟨⟨2, ![E, 1]⟩, x₂⟩] h (ix2 p 1) 1 (by show 1 < 2; omega) _ x₂ rfl rfl 1 rfl
    (ix2 p 0) (fun b => ?_) rfl
  match b with
  | ⟨0, _⟩ => exact fun _ => rfl
  | ⟨1, _⟩ => exact fun hne => absurd rfl hne

end Concat2

/-- An [800000, 2] array flattened: entry 2 p + c of the flat list is entry (p, c). -/
theorem reshape_interleave_apply (x : (⟨2, ![800000, 2]⟩ : Shape).Idx → α)
    (h : (⟨2, ![800000, 2]⟩ : Shape).ShapeCasts ⟨1, ![1600000]⟩) (p : Fin 800000) (c : Fin 2) :
    shapeCast ⟨1, ![1600000]⟩ x h (ix1 ⟨2 * p.val + c.val, by omega⟩) = x (ix2 p c) := by
  refine shapeCast_apply x h _ _ ?_
  rw [Shape.rowMajor_val_two, Shape.rowMajor_val_one]
  show p.val * 2 + c.val = 2 * p.val + c.val
  omega

/-- 1600000 rows of 64 columns re-read as 800000 rows of 128: entry (p, k) is row 2 p + k / 64, column k % 64. -/
theorem reshape_rowpairs_apply (x : (⟨2, ![1600000, 64]⟩ : Shape).Idx → α)
    (h : (⟨2, ![1600000, 64]⟩ : Shape).ShapeCasts ⟨2, ![800000, 128]⟩) (p : Fin 800000) (k : Fin 128) :
    shapeCast ⟨2, ![800000, 128]⟩ x h (ix2 p k)
      = x (ix2 ⟨2 * p.val + k.val / 64, by omega⟩ ⟨k.val % 64, by omega⟩) := by
  refine shapeCast_apply x h _ _ ?_
  rw [Shape.rowMajor_val_two, Shape.rowMajor_val_two]
  show (2 * p.val + k.val / 64) * 64 + k.val % 64 = p.val * 128 + k.val
  omega

/-! ### Start indices -/

/-- A start index as the host computes it from a node number: a negative 32-bit entry moved up by the table height. -/
def wrapW (N w : BitVec 32) : BitVec 32 := Scalar.select (IntOp.cmpi .slt w 0#32) (IntOp.addi w N) w

/-- The column of start indices made from a flat list of node numbers reads, at (p, 0), the wrap of entry p. -/
theorem start_apply {P : Nat} (N : BitVec 32) (v : IVec ⟨1, ![P]⟩ 32)
    (h0 : (⟨0, ![]⟩ : Shape).BroadcastsInDim ⟨1, ![P]⟩ (![] : Fin 0 → Fin 1))
    (hb : (⟨1, ![P]⟩ : Shape).BroadcastsInDim ⟨2, ![P, 1]⟩ (![0] : Fin 1 → Fin 2)) (p : Fin P) :
    broadcastInDim ⟨2, ![P, 1]⟩ ![0] hb
        (select (cmpi .slt v (broadcastInDim ⟨1, ![P]⟩ ![] h0 (constantI ⟨0, ![]⟩ 32 0#32)))
          (addi v (broadcastInDim ⟨1, ![P]⟩ ![] h0 (constantI ⟨0, ![]⟩ 32 N))) v) (ix2 p 0)
      = wrapW N (v (ix1 p)) :=
  column_bcast_apply _ hb p

end Cert.BridgeRead

end
-- ==== Proof.LibFlatGatherScatter.lean ====
/-
  A FLAT GATHER and a FLAT SCATTER-ADD read at an index.

  `x[idx]` of a one-axis table `x : [N]` at a column of integers `idx : [P, 1]` (one start index per result entry)
  is StableHLO's gather with no offset axis, collapsed axis 0, start-index map [0], the index vector on axis 1 and
  slices of one entry. Result entry `p` is the table's entry `ρ p`, where `ρ p` is the start index `idx[p, 0]` read
  as a signed integer and clamped into `[0, N − 1]` — the same `ρ` (`Cert.RowGather.rowOf`) that a row gather of an
  `[N, C]` table by the same indices uses.

  Adding entries `upd : [P]` into a table `x : [N]` at the same kind of column is StableHLO's scatter with an `add`
  body, no update window axis, inserted window axis 0, scatter-dims-to-operand-dims map [0] and the index vector on
  axis 1. Update entry `e` lands on table entry `t`, the start index `idx[e, 0]` read SIGNED and NOT clamped, and is
  dropped when `t` is not in `[0, N)`. The result at `n` is the table's entry plus the sum of `upd[e]` over the
  entries `e` landing on `n` — the same set (`Cert.RowScatter.landing`) on which a row scatter-add of `[P, C]`
  updates by the same indices sums.
-/
import Idealize.ShloMosaic.PureOps.Ideal
import Idealize.ShloMosaic.Lib.ValueIdx
import proofs.«132804_j17411797418333_2_alg».proof.Proof.LibRowGather
import proofs.«132804_j17411797418333_2_alg».proof.Proof.LibRowScatterAdd

noncomputable section

open scoped BigOperators

namespace Cert.FlatGatherScatter

open Idealize.ShloMosaic Idealize.ShloMosaic.ValueIdx

/-- The dimension numbers of a gather from a one-axis table `[N]` by `[P, 1]` start indices into `[P]`; their
    conditions `wf` are decided on a program's literal shapes. -/
abbrev flatGatherDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- THE FLAT GATHER READ AT `p`: the table at entry `rowOf … p`. -/
theorem gather_flat_apply {α : Type} {N P : Nat} (hN : 0 < N)
    (wf : GatherDims.WF ⟨1, ![N]⟩ ⟨2, ![P, 1]⟩ ⟨1, ![P]⟩ [] [0] [] [0] [] 1 ![1])
    (x : (⟨1, ![N]⟩ : Shape).Idx → α) (idx : IVec ⟨2, ![P, 1]⟩ 32) (p : Fin P) :
    Host.gather (flatGatherDims N P wf) x idx (ix1 p) = x (ix1 (Cert.RowGather.rowOf N hN idx p)) := by
  unfold Host.gather
  congr 1
  funext a
  obtain rfl : a = 0 := Subsingleton.elim _ _
  refine Fin.ext ?_
  show (flatGatherDims N P wf).start (ix1 p) idx 0 + (flatGatherDims N P wf).batchCoord (ix1 p) 0
    + (flatGatherDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N P wf).startIndexMap from List.mem_singleton.mpr rfl)]
  have hsi : (flatGatherDims N P wf).siIdx (ix1 p) ⟨List.idxOf (0 : Fin 1) (flatGatherDims N P wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- The dimension numbers of a scatter of `[P]` updates into a one-axis table `[N]` by `[P, 1]` start indices; their
    conditions `wf` are decided on a program's literal shapes. -/
abbrev flatScatterDims (N P : Nat)
    (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

section
variable {N P : Nat} (wf : ScatterDims.WF ⟨1, ![N]⟩ ⟨2, ![P, 1]⟩ ⟨1, ![P]⟩ [] [0] [0] 1)

/-- The window of update entry `e` starts at the start index `idx[e, 0]`, read signed. -/
theorem start_flat (idx : IVec ⟨2, ![P, 1]⟩ 32) (e : Fin P) :
    (flatScatterDims N P wf).start (ix1 e) idx 0 = (idx (ix2 e 0)).toInt := by
  unfold ScatterDims.start
  rw [dif_pos (show (0 : Fin 1) ∈ (flatScatterDims N P wf).scatterDimsToOperandDims from List.mem_singleton.mpr rfl)]
  have hsi : (flatScatterDims N P wf).siIdx (ix1 e)
      ⟨List.idxOf (0 : Fin 1) (flatScatterDims N P wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The only axis is an inserted window axis: the window coordinate on it is zero. -/
theorem window_flat (e : Fin P) : (flatScatterDims N P wf).window (ix1 e) 0 = 0 := by
  unfold ScatterDims.window
  have h0 : ¬ (0 : Fin 1) ∈ (flatScatterDims N P wf).sKept := by
    intro h
    have := (List.mem_filter.mp h).2
    simp at this
  rw [dif_neg h0]

/-- WHERE AN UPDATE ENTRY LANDS: update entry `e` lands on table entry `n` exactly when its start index, read
    signed, is `n`. -/
theorem resultIdx?_eq_some_iff (idx : IVec ⟨2, ![P, 1]⟩ 32) (e : Fin P) (n : Fin N) :
    (flatScatterDims N P wf).resultIdx? (ix1 e) idx = some (ix1 n) ↔ (idx (ix2 e 0)).toInt = (n : ℤ) := by
  have hs0 := start_flat wf idx e
  have hw0 := window_flat wf e
  unfold ScatterDims.resultIdx?
  constructor
  · intro h
    split at h
    · rename_i hall
      have hfun := Option.some.inj h
      have e0 := congrArg Fin.val (congrFun hfun 0)
      have a0 := hall 0
      simp only [hs0, hw0] at e0 a0
      have : ((ix1 n : (⟨1, ![N]⟩ : Shape).Idx) 0).val = n.val := rfl
      rw [this] at e0
      omega
    · cases h
  · intro ht
    have hall : ∀ a : Fin 1, 0 ≤ (flatScatterDims N P wf).start (ix1 e) idx a + ((flatScatterDims N P wf).window (ix1 e) a : ℤ) ∧
        (flatScatterDims N P wf).start (ix1 e) idx a + ((flatScatterDims N P wf).window (ix1 e) a : ℤ)
          < ((⟨1, ![N]⟩ : Shape).size a : ℤ) := by
      intro a
      obtain rfl : a = 0 := Subsingleton.elim _ _
      show 0 ≤ (flatScatterDims N P wf).start (ix1 e) idx 0 + ((flatScatterDims N P wf).window (ix1 e) 0 : ℤ) ∧
        (flatScatterDims N P wf).start (ix1 e) idx 0 + ((flatScatterDims N P wf).window (ix1 e) 0 : ℤ) < (N : ℤ)
      rw [hs0, hw0, ht]
      have := n.isLt
      omega
    rw [dif_pos hall]
    congr 1
    funext a
    obtain rfl : a = 0 := Subsingleton.elim _ _
    refine Fin.ext ?_
    show ((flatScatterDims N P wf).start (ix1 e) idx 0 + ((flatScatterDims N P wf).window (ix1 e) 0 : ℤ)).toNat = n.val
    rw [hs0, hw0, ht]
    omega

/-- THE FLAT SCATTER-ADD READ AT `n`: the table's entry plus every update entry that lands on `n`. -/
theorem scatterAdd_flat_apply (x : (⟨1, ![N]⟩ : Shape).Idx → EReal) (idx : IVec ⟨2, ![P, 1]⟩ 32)
    (upd : (⟨1, ![P]⟩ : Shape).Idx → EReal) (n : Fin N) :
    Ideal.hostScatterAdd (flatScatterDims N P wf) x idx upd (ix1 n)
      = x (ix1 n) + ∑ e ∈ Cert.RowScatter.landing N idx n, upd (ix1 e) := by
  unfold Ideal.hostScatterAdd
  congr 1
  refine Finset.sum_nbij' (fun j => j 0) (fun e => ix1 e) ?_ ?_ ?_ ?_ ?_
  · intro j hj
    rw [Finset.mem_filter] at hj
    have h := hj.2
    rw [eq_ix1 j] at h
    exact (Cert.RowScatter.mem_landing idx n (j 0)).mpr ((resultIdx?_eq_some_iff wf idx (j 0) n).mp h)
  · intro e he
    rw [Finset.mem_filter]
    exact ⟨Finset.mem_univ _, (resultIdx?_eq_some_iff wf idx e n).mpr ((Cert.RowScatter.mem_landing idx n e).mp he)⟩
  · intro j _
    exact (eq_ix1 j).symm
  · intro e _
    rfl
  · intro j _
    exact congrArg upd (eq_ix1 j)

/-- The program's form of the same reading: `Host.scatterAdd` at the extended reals is the exact accumulating
    scatter, so it reads at `n` as the table's entry plus every update entry landing on `n`. -/
theorem host_scatterAdd_flat_apply {φ : FTy} (x : FVec Ideal ⟨1, ![N]⟩ φ) (idx : IVec ⟨2, ![P, 1]⟩ 32)
    (upd : FVec Ideal ⟨1, ![P]⟩ φ) (n : Fin N) :
    Host.scatterAdd (F := Ideal) (flatScatterDims N P wf) x idx upd (ix1 n)
      = x (ix1 n) + ∑ e ∈ Cert.RowScatter.landing N idx n, upd (ix1 e) :=
  scatterAdd_flat_apply wf x idx upd n

end

end Cert.FlatGatherScatter

end
-- ==== Proof.IdxColumns.lean ====
/-
  The two columns of start indices that a program makes from the edge list, as arrays.

  The edge list is a [2, 800000] array of 32-bit integers: row 0 holds each edge's source node, row 1 its
  destination node. A program slices a row off ([1, 800000]), drops the unit axis ([800000]) and broadcasts the flat
  list to a column ([800000, 1]) of start indices for a row gather or a row scatter. For the sources a negative
  entry is first moved up by the number of nodes, 50000 (compare with a broadcast zero, add a broadcast 50000,
  select). The two columns so made are the arrays `Cert.Gin.srcArr ei` and `Cert.Gin.dstArr ei`.
  The statements are over any edge list and over any proofs of the shape facts the operations carry.
-/
import Idealize.ShloMosaic.PureOps.Ideal
import Idealize.ShloMosaic.Lib.Pipeline.Value
import Idealize.ShloMosaic.Lib.ValueIdx
import proofs.«132804_j17411797418333_2_alg».proof.Proof.LibBridgeRead
import proofs.«132804_j17411797418333_2_alg».proof.Proof.Spec

noncomputable section

namespace Cert.Gin.Idx

open Idealize.ShloMosaic Idealize.ShloMosaic.ValueIdx

/-- An index of a column [P, 1] is its row coordinate and the unit coordinate zero. -/
theorem eq_ix2_col {P : Nat} (j : (⟨2, ![P, 1]⟩ : Shape).Idx) : j = ix2 (j 0) (0 : Fin 1) := by
  refine (eq_ix2 j).trans ?_
  exact congrArg (ix2 (j 0)) (Subsingleton.elim (α := Fin 1) (j 1) 0)

/-- Row r of the edge list as a flat list: the slice [1, 800000] at (r, 0) with its unit axis dropped reads at e
    the edge list at (r, e). -/
theorem row_apply (ei : (⟨2, ![2, 800000]⟩ : Shape).Idx → BitVec 32) (r : Nat) (hr : r < 2)
    (hs : (⟨2, ![2, 800000]⟩ : Shape).Slices ![r, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![r, 0] ei hs) hc (ix1 e) = ei (ix2 ⟨r, hr⟩ e) :=
  Cert.BridgeRead.slice2_drop_apply ei hs hc hr e

/-- THE SOURCE COLUMN: row 0 of the edge list, its negative entries moved up by 50000, broadcast to a column, is
    `srcArr ei`. -/
theorem srcCol_eq (ei : (⟨2, ![2, 800000]⟩ : Shape).Idx → BitVec 32)
    (hs : (⟨2, ![2, 800000]⟩ : Shape).Slices ![0, 0] ⟨2, ![1, 800000]⟩)
    (hc : (⟨2, ![1, 800000]⟩ : Shape).ShapeCasts ⟨1, ![800000]⟩)
    (h0 : (⟨0, ![]⟩ : Shape).BroadcastsInDim ⟨1, ![800000]⟩ (![] : Fin 0 → Fin 1))
    (hb : (⟨1, ![800000]⟩ : Shape).BroadcastsInDim ⟨2, ![800000, 1]⟩ (![0] : Fin 1 → Fin 2)) :
    broadcastInDim ⟨2, ![800000, 1]⟩ ![0] hb
        (select
          (cmpi .slt (shapeCast ⟨1, ![800000]⟩ (extractStridedSlice ⟨2, ![1, 800000]⟩ ![0, 0] ei hs) hc)
            (broadcastInDim ⟨1, ![800000]⟩ ![] h0 (constantI ⟨0, ![]⟩ 32 0#32)))
          (addi (shapeCast ⟨1, ![800000]⟩ (extractStridedSlice ⟨2, ![1, 800000]⟩ ![0, 0] ei hs) hc)
            (broadcastInDim ⟨1, ![800000]⟩ ![] h0 (constantI ⟨0, ![]⟩ 32 50000#32)))
          (shapeCast ⟨1, ![800000]⟩ (extractStridedSlice ⟨2, ![1, 800000]⟩ ![0, 0] ei hs) hc))
      = Cert.Gin.srcArr ei := by
  funext j
  obtain ⟨p, rfl⟩ : ∃ p : Fin 800000, j = ix2 p (0 : Fin 1) := ⟨j 0, eq_ix2_col j⟩
  refine (Cert.BridgeRead.start_apply 50000#32 _ h0 hb p).trans ?_
  rw [row_apply ei 0 (by omega) hs hc p]
  rfl

/-- THE DESTINATION COLUMN: row 1 of the edge list broadcast to a column is `dstArr ei`. -/
theorem dstCol_eq (ei : (⟨2, ![2, 800000]⟩ : Shape).Idx → BitVec 32)
    (hs : (⟨2, ![2, 800000]⟩ : Shape).Slices ![1, 0] ⟨2, ![1, 800000]⟩)
    (hc : (⟨2, ![1, 800000]⟩ : Shape).ShapeCasts ⟨1, ![800000]⟩)
    (hb : (⟨1, ![800000]⟩ : Shape).BroadcastsInDim ⟨2, ![800000, 1]⟩ (![0] : Fin 1 → Fin 2)) :
    broadcastInDim ⟨2, ![800000, 1]⟩ ![0] hb
        (shapeCast ⟨1, ![800000]⟩ (extractStridedSlice ⟨2, ![1, 800000]⟩ ![1, 0] ei hs) hc)
      = Cert.Gin.dstArr ei := by
  funext j
  obtain ⟨p, rfl⟩ : ∃ p : Fin 800000, j = ix2 p (0 : Fin 1) := ⟨j 0, eq_ix2_col j⟩
  refine (Cert.BridgeRead.column_bcast_apply _ hb p).trans ?_
  rw [row_apply ei 1 (by omega) hs hc p]
  rfl

end Cert.Gin.Idx

end
-- ==== Proof.KernelHost.lean ====
/-
  The arrays the region's windows find, read at an index.

  Before the region runs, the program computes on the host: the two columns of start indices from the edge list, the
  rows of x gathered at the edges' sources and summed at their destinations, the same for the times t, the two-column
  array (t, aggregated t), the row blocks of the first weight matrices, and the biases as one-row matrices. Each of
  those arrays is read here at an index, in terms of the argument arrays: the aggregated arrays as `Cert.Gin.aggCol`
  of a column, the row blocks as rows of the whole matrix, the one-row biases as the bias entries.
-/
import proofs.«132804_j17411797418333_2_alg».proof.Proof.Gen.KernelIdeal.Frame
import Idealize.ShloMosaic.Lib.ValueLayout
import Idealize.ShloMosaic.Lib.StableHlo.Run
import proofs.«132804_j17411797418333_2_alg».proof.Proof.Spec
import proofs.«132804_j17411797418333_2_alg».proof.Proof.LibHostRead
import proofs.«132804_j17411797418333_2_alg».proof.Proof.LibBridgeRead
import proofs.«132804_j17411797418333_2_alg».proof.Proof.LibFlatGatherScatter
import proofs.«132804_j17411797418333_2_alg».proof.Proof.IdxColumns

noncomputable section

open scoped BigOperators

namespace Cert.Gin.KHost

open Cert.KernelIdeal Cert.KernelIdeal.Gen Idealize.ShloMosaic Idealize.ShloMosaic.ValueIdx Idealize.ShloMosaic.TcCoe
open Idealize.ShloMosaic.StableHlo (after_cons after_nil)

variable (m : (ℓ : Loc nD τ sig) → Buf (Elt Ideal) ℓ) (c : Dev nD)

/-! ## The two columns of start indices -/

/-- The column of the edges' source start indices, as the host operations compute it from the edge list: row 0,
    a negative entry moved up by the number of nodes, laid out as a column. -/
abbrev srcCol (ei : S2x800000.Idx → BitVec 32) : S800000x1.Idx → BitVec 32 :=
  broadcastInDim S800000x1 ![0] bcast_S800000_S800000x1_0
    (select
      (cmpi .slt
        (shapeCast S800000 (extractStridedSlice S1x800000 ![0, 0] ei slices_S2x800000_S1x800000_0_0) shapeCasts_S1x800000_S800000)
        (broadcastInDim S800000 ![] bcast_S_S800000 (constantI S_ 32 0#32)))
      (addi
        (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The column of the edges' destination start indices, as the host operations compute it: row 1 as a column. -/
abbrev dstCol (ei : S2x800000.Idx → BitVec 32) : S800000x1.Idx → BitVec 32 :=
  broadcastInDim S800000x1 ![0] bcast_S800000_S800000x1_0
    (shapeCast S800000 (extractStridedSlice S1x800000 ![1, 0] ei slices_S2x800000_S1x800000_1_0) shapeCasts_S1x800000_S800000)

theorem srcCol_eq (ei : S2x800000.Idx → BitVec 32) : srcCol ei = Cert.Gin.srcArr ei :=
  Cert.Gin.Idx.srcCol_eq ei _ _ _ _

theorem dstCol_eq (ei : S2x800000.Idx → BitVec 32) : dstCol ei = Cert.Gin.dstArr ei :=
  Cert.Gin.Idx.dstCol_eq ei _ _ _

/-- The broadcast zero literal reads the zero word at every index. -/
theorem zeros_apply {t : Shape} (h : (⟨0, ![]⟩ : Shape).BroadcastsInDim t ![]) (j : t.Idx) :
    broadcastInDim t ![] h (constant (F := Ideal) S_ .f32 0x00000000#32) j = Cert.Gin.z0 :=
  (Cert.HostRead.scalar_bcast_apply h _ j).trans (constant_apply _ _)

/-! ## The aggregated feature rows -/

/-- The rows of x gathered at the edges' sources and summed at their destinations: column k at node n is the
    aggregate of column k of x. -/
theorem V13_apply (n : Fin 50000) (k : Fin 128) :
    (Gen.V m c main_v13 : S50000x128.Idx → EReal) (ix2 n k)
      = Cert.Gin.aggCol (Cert.Gin.srcArr (m ((c : Thread nD τ).loc main_arg3) : S2x800000.Idx → BitVec 32))
          (Cert.Gin.dstArr (m ((c : Thread nD τ).loc main_arg3) : S2x800000.Idx → BitVec 32))
          (fun r => (m ((c : Thread nD τ).loc main_arg0) : S50000x128.Idx → EReal) (ix2 r k)) n := by
  have e : (Gen.V m c main_v13 : S50000x128.Idx → EReal)
      = Host.scatterAdd (F := Ideal) scatter_S50000x128_S800000x1_S800000x128_1_0_0_1
          (broadcastInDim S50000x128 ![] bcast_S_S50000x128 (constant (F := Ideal) S_ .f32 0x00000000#32))
          (dstCol (m ((c : Thread nD τ).loc main_arg3) : S2x800000.Idx → BitVec 32))
          (Host.gather gather_S50000x128_S800000x1_S800000x128_1_0_n_n_0_1_1128
            (m ((c : Thread nD τ).loc main_arg0) : S50000x128.Idx → EReal)
            (srcCol (m ((c : Thread nD τ).loc main_arg3) : S2x800000.Idx → BitVec 32))) := by
    show StableHlo.after hostOps0 (fun b => m (c, b)) (Proc.devRef .tc main_v13) = _
    after_results_simp
    try rfl
  have hS : scatter_S50000x128_S800000x1_S800000x128_1_0_0_1
      = Cert.RowScatter.rowDims 50000 800000 128 scatter_S50000x128_S800000x1_S800000x128_1_0_0_1_wf := rfl
  have hG : gather_S50000x128_S800000x1_S800000x128_1_0_n_n_0_1_1128
      = Cert.RowGather.rowDims 50000 800000 128 gather_S50000x128_S800000x1_S800000x128_1_0_n_n_0_1_1128_wf := rfl
  rw [e, srcCol_eq, dstCol_eq, hS, hG, Cert.RowScatter.host_scatterAdd_rows_apply]
  unfold Cert.Gin.aggCol
  refine congrArg₂ (· + ·) (zeros_apply _ _) (Finset.sum_congr rfl fun p _ => ?_)
  exact Cert.RowGather.gather_rows_apply (by norm_num) _ _ _ p k

/-! ## The times and the aggregated times, side by side -/

/-- The times gathered at the edges' sources and summed at their destinations, as the host operations compute
    them. -/
abbrev aggT (t : S50000.Idx → EReal) (ei : S2x800000.Idx → BitVec 32) : S50000.Idx → EReal :=
  Host.scatterAdd (F := Ideal) scatter_S50000_S800000x1_S800000_n_0_0_1
    (broadcastInDim S50000 ![] bcast_S_S50000 (constant (F := Ideal) S_ .f32 0x00000000#32))
    (dstCol ei)
    (Host.gather gather_S50000_S800000x1_S800000_n_0_n_n_0_1_1 t (srcCol ei))

/-- The aggregated times at node n: the aggregate of the column of times. -/
theorem aggT_apply (t : S50000.Idx → EReal) (ei : S2x800000.Idx → BitVec 32) (n : Fin 50000) :
    aggT t ei (ix1 n) = Cert.Gin.aggCol (Cert.Gin.srcArr ei) (Cert.Gin.dstArr ei) (fun r => t (ix1 r)) n := by
  have hS : scatter_S50000_S800000x1_S800000_n_0_0_1
      = Cert.FlatGatherScatter.flatScatterDims 50000 800000 scatter_S50000_S800000x1_S800000_n_0_0_1_wf := rfl
  have hG : gather_S50000_S800000x1_S800000_n_0_n_n_0_1_1
      = Cert.FlatGatherScatter.flatGatherDims 50000 800000 gather_S50000_S800000x1_S800000_n_0_n_n_0_1_1_wf := rfl
  unfold aggT
  rw [srcCol_eq, dstCol_eq, hS, hG, Cert.FlatGatherScatter.host_scatterAdd_flat_apply]
  unfold Cert.Gin.aggCol
  refine congrArg₂ (· + ·) (zeros_apply _ _) (Finset.sum_congr rfl fun p _ => ?_)
  exact Cert.FlatGatherScatter.gather_flat_apply (by norm_num) _ _ _ p

/-- Column 0 of the two-column array: the times. -/
theorem V26_apply0 (n : Fin 50000) :
    (Gen.V m c main_v26 : S50000x2.Idx → EReal) (ix2 n 0)
      = (m ((c : Thread nD τ).loc main_arg1) : S50000.Idx → EReal) (ix1 n) := by
  show StableHlo.after hostOps0 (fun b => m (c, b)) (Proc.devRef .tc main_v26) (ix2 n 0) = _
  after_results_simp
  exact (Cert.BridgeRead.concat2_cols_apply_fst _ _ _ n).trans (Cert.BridgeRead.column_bcast_apply _ _ n)

/-- Column 1 of the two-column array: the aggregated times. -/
theorem V26_apply1 (n : Fin 50000) :
    (Gen.V m c main_v26 : S50000x2.Idx → EReal) (ix2 n 1)
      = Cert.Gin.aggCol (Cert.Gin.srcArr (m ((c : Thread nD τ).loc main_arg3) : S2x800000.Idx → BitVec 32))
          (Cert.Gin.dstArr (m ((c : Thread nD τ).loc main_arg3) : S2x800000.Idx → BitVec 32))
          (fun r => (m ((c : Thread nD τ).loc main_arg1) : S50000.Idx → EReal) (ix1 r)) n := by
  show StableHlo.after hostOps0 (fun b => m (c, b)) (Proc.devRef .tc main_v26) (ix2 n 1) = _
  after_results_simp
  refine (Cert.BridgeRead.concat2_cols_apply_snd _ _ _ n).trans ?_
  refine (Cert.BridgeRead.column_bcast_apply _ _ n).trans ?_
  exact aggT_apply (m ((c : Thread nD τ).loc main_arg1) : S50000.Idx → EReal)
    (m ((c : Thread nD τ).loc main_arg3) : S2x800000.Idx → BitVec 32) n

/-! ## The row blocks of the weights -/

/-- Rows 0 .. 127 of W1. -/
theorem V27_apply (k j : Fin 128) :
    (Gen.V m c main_v27 : S128x128.Idx → EReal) (ix2 k j)
      = (m ((c : Thread nD τ).loc main_arg4) : S129x128.Idx → EReal) (ix2 ⟨k.val, by omega⟩ j) := by
  have e : (Gen.V m c main_v27 : S128x128.Idx → EReal)
      = extractStridedSlice S128x128 ![0, 0] (m ((c : Thread nD τ).loc main_arg4) : S129x128.Idx → EReal)
          slices_S129x128_S128x128_0_0 := by
    show StableHlo.after hostOps0 (fun b => m (c, b)) (Proc.devRef .tc main_v27) = _
    after_results_simp
  rw [e]
  exact slice2_axis0_apply 0 _ _ k j ⟨k.val, by omega⟩ (Nat.zero_add _).symm

/-- Row 128 of W1. -/
theorem V28_apply (j : Fin 128) :
    (Gen.V m c main_v28 : S1x128.Idx → EReal) (ix2 0 j)
      = (m ((c : Thread nD τ).loc main_arg4) : S129x128.Idx → EReal) (ix2 ⟨128, by omega⟩ j) := by
  have e : (Gen.V m c main_v28 : S1x128.Idx → EReal)
      = extractStridedSlice S1x128 ![128, 0] (m ((c : Thread nD τ).loc main_arg4) : S129x128.Idx → EReal)
          slices_S129x128_S1x128_128_0 := by
    show StableHlo.after hostOps0 (fun b => m (c, b)) (Proc.devRef .tc main_v28) = _
    after_results_simp
  rw [e]
  exact slice2_axis0_apply 128 _ _ (0 : Fin 1) j ⟨128, by omega⟩ rfl

/-- Rows 0 .. 127 of P1. -/
theorem V29_apply (k j : Fin 128) :
    (Gen.V m c main_v29 : S128x128.Idx → EReal) (ix2 k j)
      = (m ((c : Thread nD τ).loc main_arg8) : S257x128.Idx → EReal) (ix2 ⟨k.val, by omega⟩ j) := by
  have e : (Gen.V m c main_v29 : S128x128.Idx → EReal)
      = extractStridedSlice S128x128 ![0, 0] (m ((c : Thread nD τ).loc main_arg8) : S257x128.Idx → EReal)
          slices_S257x128_S128x128_0_0 := by
    show StableHlo.after hostOps0 (fun b => m (c, b)) (Proc.devRef .tc main_v29) = _
    after_results_simp
  rw [e]
  exact slice2_axis0_apply 0 _ _ k j ⟨k.val, by omega⟩ (Nat.zero_add _).symm

/-- Rows 128 .. 255 of P1. -/
theorem V30_apply (k j : Fin 128) :
    (Gen.V m c main_v30 : S128x128.Idx → EReal) (ix2 k j)
      = (m ((c : Thread nD τ).loc main_arg8) : S257x128.Idx → EReal) (ix2 ⟨128 + k.val, by omega⟩ j) := by
  have e : (Gen.V m c main_v30 : S128x128.Idx → EReal)
      = extractStridedSlice S128x128 ![128, 0] (m ((c : Thread nD τ).loc main_arg8) : S257x128.Idx → EReal)
          slices_S257x128_S128x128_128_0 := by
    show StableHlo.after hostOps0 (fun b => m (c, b)) (Proc.devRef .tc main_v30) = _
    after_results_simp
  rw [e]
  exact slice2_axis0_apply 128 _ _ k j ⟨128 + k.val, by omega⟩ rfl

/-- Row 256 of P1. -/
theorem V31_apply (j : Fin 128) :
    (Gen.V m c main_v31 : S1x128.Idx → EReal) (ix2 0 j)
      = (m ((c : Thread nD τ).loc main_arg8) : S257x128.Idx → EReal) (ix2 ⟨256, by omega⟩ j) := by
  have e : (Gen.V m c main_v31 : S1x128.Idx → EReal)
      = extractStridedSlice S1x128 ![256, 0] (m ((c : Thread nD τ).loc main_arg8) : S257x128.Idx → EReal)
          slices_S257x128_S1x128_256_0 := by
    show StableHlo.after hostOps0 (fun b => m (c, b)) (Proc.devRef .tc main_v31) = _
    after_results_simp
  rw [e]
  exact slice2_axis0_apply 256 _ _ (0 : Fin 1) j ⟨256, by omega⟩ rfl

/-! ## The biases as one-row matrices -/

/-- b1 as a [1, 128] matrix. -/
theorem V32_apply (j : Fin 128) :
    (Gen.V m c main_v32 : S1x128.Idx → EReal) (ix2 0 j)
      = (m ((c : Thread nD τ).loc main_arg5) : S128.Idx → EReal) (ix1 j) := by
  have e : (Gen.V m c main_v32 : S1x128.Idx → EReal)
      = shapeCast S1x128 (m ((c : Thread nD τ).loc main_arg5) : S128.Idx → EReal) shapeCasts_S128_S1x128 := by
    show StableHlo.after hostOps0 (fun b => m (c, b)) (Proc.devRef .tc main_v32) = _
    after_results_simp
    try rfl
  rw [e]
  exact shapeCast_a_1a_apply _ _ (0 : Fin 1) j

/-- b2 as a [1, 128] matrix. -/
theorem V33_apply (j : Fin 128) :
    (Gen.V m c main_v33 : S1x128.Idx → EReal) (ix2 0 j)
      = (m ((c : Thread nD τ).loc main_arg7) : S128.Idx → EReal) (ix1 j) := by
  have e : (Gen.V m c main_v33 : S1x128.Idx → EReal)
      = shapeCast S1x128 (m ((c : Thread nD τ).loc main_arg7) : S128.Idx → EReal) shapeCasts_S128_S1x128 := by
    show StableHlo.after hostOps0 (fun b => m (c, b)) (Proc.devRef .tc main_v33) = _
    after_results_simp
    try rfl
  rw [e]
  exact shapeCast_a_1a_apply _ _ (0 : Fin 1) j

/-- pb1 as a [1, 128] matrix. -/
theorem V34_apply (j : Fin 128) :
    (Gen.V m c main_v34 : S1x128.Idx → EReal) (ix2 0 j)
      = (m ((c : Thread nD τ).loc main_arg9) : S128.Idx → EReal) (ix1 j) := by
  have e : (Gen.V m c main_v34 : S1x128.Idx → EReal)
      = shapeCast S1x128 (m ((c : Thread nD τ).loc main_arg9) : S128.Idx → EReal) shapeCasts_S128_S1x128 := by
    show StableHlo.after hostOps0 (fun b => m (c, b)) (Proc.devRef .tc main_v34) = _
    after_results_simp
    try rfl
  rw [e]
  exact shapeCast_a_1a_apply _ _ (0 : Fin 1) j

/-- pb2 as a [1, 128] matrix. -/
theorem V35_apply (j : Fin 128) :
    (Gen.V m c main_v35 : S1x128.Idx → EReal) (ix2 0 j)
      = (m ((c : Thread nD τ).loc main_arg11) : S128.Idx → EReal) (ix1 j) := by
  have e : (Gen.V m c main_v35 : S1x128.Idx → EReal)
      = shapeCast S1x128 (m ((c : Thread nD τ).loc main_arg11) : S128.Idx → EReal) shapeCasts_S128_S1x128 := by
    show StableHlo.after hostOps0 (fun b => m (c, b)) (Proc.devRef .tc main_v35) = _
    after_results_simp
    try rfl
  rw [e]
  exact shapeCast_a_1a_apply _ _ (0 : Fin 1) j

/-- pb3 as a [1, 1] matrix. -/
theorem V36_apply :
    (Gen.V m c main_v36 : S1x1.Idx → EReal) (ix2 0 0)
      = (m ((c : Thread nD τ).loc main_arg13) : S1.Idx → EReal) (ix1 0) := by
  have e : (Gen.V m c main_v36 : S1x1.Idx → EReal)
      = shapeCast S1x1 (m ((c : Thread nD τ).loc main_arg13) : S1.Idx → EReal) shapeCasts_S1_S1x1 := by
    show StableHlo.after hostOps0 (fun b => m (c, b)) (Proc.devRef .tc main_v36) = _
    after_results_simp
    try rfl
  rw [e]
  exact shapeCast_a_1a_apply _ _ (0 : Fin 1) (0 : Fin 1)

end Cert.Gin.KHost

end
-- ==== Proof.KernelBlocks.lean ====
/-
  The blocks the kernel's region reads, as entries of the argument arrays.

  The region runs over ten grid points. At point t the three row-tiled inputs (the node features x, their
  aggregate over incoming edges, and the two-column array of times and aggregated times) are staged as rows
  5000·t … 5000·t + 4999 of their arrays, and every weight or bias is staged whole. So row r of a tiled block is
  node 5000·t + r of its array, and an entry of a weight block is the same entry of the weight. Each array the
  host operations before the region produced is then read as entries of the program's arguments: the aggregate
  as a sum over the edges landing on the node, the weight pieces as rows of W1 and P1, the biases as the flat
  bias vectors.

  The block reads are proved for an arbitrary array in the window's place and then instantiated at the array the
  region finds.
-/
import proofs.«132804_j17411797418333_2_alg».proof.Proof.Gen.KernelIdeal.Frame
import proofs.«132804_j17411797418333_2_alg».proof.Proof.Spec
import proofs.«132804_j17411797418333_2_alg».proof.Proof.KernelHost
import Idealize.ShloMosaic.Lib.Pipeline.Value

set_option maxRecDepth 16384
set_option Elab.async false

noncomputable section

open Idealize.ShloMosaic Idealize.ShloMosaic.TcCoe Idealize.SL.Sem Idealize.ShloMosaic.ValueIdx
open Idealize.ShloMosaic.Pipeline (Dat)

namespace Cert.Gin.KRun

open Cert.KernelIdeal Cert.KernelIdeal.Gen

variable (m : (ℓ : Loc nD τ sig) → Buf (Elt Ideal) ℓ) (ρ : Dev nD → PrngReg)

/-- The printed index maps, decided over the ten grid points: the three row-tiled inputs and the output move with
    the point along axis 0. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_16.index t (0 : Fin 2) = t.val ∧ win0_16.index t (1 : Fin 2) = 0 :=
  (by decide +kernel : ∀ t : Fin grid0.N, _)

/-- Every other window stays at block (0, 0) at every point. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-! ## The blocks read through the index maps -/

/-- Block t of an array tiled like window 0's, at row r, is the array at row 5000·t + r. -/
theorem rd0 (G : S50000x128.Idx → EReal) (t : Fin cfg0.N) (r : Fin 5000) (n : Fin 50000) (hn : n.val = 5000 * t.val + r.val) (k : Fin 128) :
    ((cfg0.win 0).blk t).view.read (Elt Ideal) G (ix2 r k) = G (ix2 n k) := by
  have e0 : win0_0.index t (0 : Fin 2) = t.val := (idx_moving t).1
  have e1 : win0_0.index t (1 : Fin 2) = 0 := (idx_moving t).2.1
  rw [View.read_apply]
  refine congrArg G ?_
  funext a
  apply Fin.ext
  match a with
  | ⟨0, _⟩ => show win0_0.index t 0 * 5000 + 1 * r.val = n.val; rw [e0, hn]; omega
  | ⟨1, _⟩ => show win0_0.index t 1 * 128 + 1 * k.val = k.val; rw [e1]; omega

theorem blk0 (c : Dev nD) (t : Fin cfg0.N) (r : Fin 5000) (n : Fin 50000) (hn : n.val = 5000 * t.val + r.val) (k : Fin 128) :
    (iblk m c 0 t : Vec Ideal S5000x128 .f32) (ix2 r k) = (V m c main_arg0 : S50000x128.Idx → EReal) (ix2 n k) := by
  unfold iblk
  exact rd0 (V m c main_arg0) t r n hn k

/-- Block t of an array tiled like window 1's, at row r, is the array at row 5000·t + r. -/
theorem rd1 (G : S50000x128.Idx → EReal) (t : Fin cfg0.N) (r : Fin 5000) (n : Fin 50000) (hn : n.val = 5000 * t.val + r.val) (k : Fin 128) :
    ((cfg0.win 1).blk t).view.read (Elt Ideal) G (ix2 r k) = G (ix2 n k) := by
  have e0 : win0_1.index t (0 : Fin 2) = t.val := (idx_moving t).2.2.1
  have e1 : win0_1.index t (1 : Fin 2) = 0 := (idx_moving t).2.2.2.1
  rw [View.read_apply]
  refine congrArg G ?_
  funext a
  apply Fin.ext
  match a with
  | ⟨0, _⟩ => show win0_1.index t 0 * 5000 + 1 * r.val = n.val; rw [e0, hn]; omega
  | ⟨1, _⟩ => show win0_1.index t 1 * 128 + 1 * k.val = k.val; rw [e1]; omega

theorem blk1 (c : Dev nD) (t : Fin cfg0.N) (r : Fin 5000) (n : Fin 50000) (hn : n.val = 5000 * t.val + r.val) (k : Fin 128) :
    (iblk m c 1 t : Vec Ideal S5000x128 .f32) (ix2 r k) = (V m c main_v13 : S50000x128.Idx → EReal) (ix2 n k) := by
  unfold iblk
  exact rd1 (V m c main_v13) t r n hn k

/-- Block t of an array tiled like window 2's, at row r, is the array at row 5000·t + r. -/
theorem rd2 (G : S50000x2.Idx → EReal) (t : Fin cfg0.N) (r : Fin 5000) (n : Fin 50000) (hn : n.val = 5000 * t.val + r.val) (k : Fin 2) :
    ((cfg0.win 2).blk t).view.read (Elt Ideal) G (ix2 r k) = G (ix2 n k) := by
  have e0 : win0_2.index t (0 : Fin 2) = t.val := (idx_moving t).2.2.2.2.1
  have e1 : win0_2.index t (1 : Fin 2) = 0 := (idx_moving t).2.2.2.2.2.1
  rw [View.read_apply]
  refine congrArg G ?_
  funext a
  apply Fin.ext
  match a with
  | ⟨0, _⟩ => show win0_2.index t 0 * 5000 + 1 * r.val = n.val; rw [e0, hn]; omega
  | ⟨1, _⟩ => show win0_2.index t 1 * 2 + 1 * k.val = k.val; rw [e1]; omega

theorem blk2 (c : Dev nD) (t : Fin cfg0.N) (r : Fin 5000) (n : Fin 50000) (hn : n.val = 5000 * t.val + r.val) (k : Fin 2) :
    (iblk m c 2 t : Vec Ideal S5000x2 .f32) (ix2 r k) = (V m c main_v26 : S50000x2.Idx → EReal) (ix2 n k) := by
  unfold iblk
  exact rd2 (V m c main_v26) t r n hn k

/-- An array staged whole like window 3's: its block at every point is the array. -/
theorem rd3 (G : S128x128.Idx → EReal) (t : Fin cfg0.N) (a : Fin 128) (b : Fin 128) :
    ((cfg0.win 3).blk t).view.read (Elt Ideal) G (ix2 a b) = G (ix2 a b) := by
  have e0 : win0_3.index t (0 : Fin 2) = 0 := (idx_fixed t).1
  have e1 : win0_3.index t (1 : Fin 2) = 0 := (idx_fixed t).2.1
  rw [View.read_apply]
  refine congrArg G ?_
  funext ax
  apply Fin.ext
  match ax with
  | ⟨0, _⟩ => show win0_3.index t 0 * 128 + 1 * a.val = a.val; rw [e0]; omega
  | ⟨1, _⟩ => show win0_3.index t 1 * 128 + 1 * b.val = b.val; rw [e1]; omega

theorem blk3 (c : Dev nD) (t : Fin cfg0.N) (a : Fin 128) (b : Fin 128) :
    (iblk m c 3 t : Vec Ideal S128x128 .f32) (ix2 a b) = (V m c main_v27 : S128x128.Idx → EReal) (ix2 a b) := by
  unfold iblk
  exact rd3 (V m c main_v27) t a b

/-- An array staged whole like window 4's: its block at every point is the array. -/
theorem rd4 (G : S1x128.Idx → EReal) (t : Fin cfg0.N) (a : Fin 1) (b : Fin 128) :
    ((cfg0.win 4).blk t).view.read (Elt Ideal) G (ix2 a b) = G (ix2 a b) := by
  have e0 : win0_4.index t (0 : Fin 2) = 0 := (idx_fixed t).2.2.1
  have e1 : win0_4.index t (1 : Fin 2) = 0 := (idx_fixed t).2.2.2.1
  rw [View.read_apply]
  refine congrArg G ?_
  funext ax
  apply Fin.ext
  match ax with
  | ⟨0, _⟩ => show win0_4.index t 0 * 1 + 1 * a.val = a.val; rw [e0]; omega
  | ⟨1, _⟩ => show win0_4.index t 1 * 128 + 1 * b.val = b.val; rw [e1]; omega

theorem blk4 (c : Dev nD) (t : Fin cfg0.N) (a : Fin 1) (b : Fin 128) :
    (iblk m c 4 t : Vec Ideal S1x128 .f32) (ix2 a b) = (V m c main_v28 : S1x128.Idx → EReal) (ix2 a b) := by
  unfold iblk
  exact rd4 (V m c main_v28) t a b

/-- An array staged whole like window 5's: its block at every point is the array. -/
theorem rd5 (G : S1x128.Idx → EReal) (t : Fin cfg0.N) (a : Fin 1) (b : Fin 128) :
    ((cfg0.win 5).blk t).view.read (Elt Ideal) G (ix2 a b) = G (ix2 a b) := by
  have e0 : win0_5.index t (0 : Fin 2) = 0 := (idx_fixed t).2.2.2.2.1
  have e1 : win0_5.index t (1 : Fin 2) = 0 := (idx_fixed t).2.2.2.2.2.1
  rw [View.read_apply]
  refine congrArg G ?_
  funext ax
  apply Fin.ext
  match ax with
  | ⟨0, _⟩ => show win0_5.index t 0 * 1 + 1 * a.val = a.val; rw [e0]; omega
  | ⟨1, _⟩ => show win0_5.index t 1 * 128 + 1 * b.val = b.val; rw [e1]; omega

theorem blk5 (c : Dev nD) (t : Fin cfg0.N) (a : Fin 1) (b : Fin 128) :
    (iblk m c 5 t : Vec Ideal S1x128 .f32) (ix2 a b) = (V m c main_v32 : S1x128.Idx → EReal) (ix2 a b) := by
  unfold iblk
  exact rd5 (V m c main_v32) t a b

/-- An array staged whole like window 6's: its block at every point is the array. -/
theorem rd6 (G : S128x128.Idx → EReal) (t : Fin cfg0.N) (a : Fin 128) (b : Fin 128) :
    ((cfg0.win 6).blk t).view.read (Elt Ideal) G (ix2 a b) = G (ix2 a b) := by
  have e0 : win0_6.index t (0 : Fin 2) = 0 := (idx_fixed t).2.2.2.2.2.2.1
  have e1 : win0_6.index t (1 : Fin 2) = 0 := (idx_fixed t).2.2.2.2.2.2.2.1
  rw [View.read_apply]
  refine congrArg G ?_
  funext ax
  apply Fin.ext
  match ax with
  | ⟨0, _⟩ => show win0_6.index t 0 * 128 + 1 * a.val = a.val; rw [e0]; omega
  | ⟨1, _⟩ => show win0_6.index t 1 * 128 + 1 * b.val = b.val; rw [e1]; omega

theorem blk6 (c : Dev nD) (t : Fin cfg0.N) (a : Fin 128) (b : Fin 128) :
    (iblk m c 6 t : Vec Ideal S128x128 .f32) (ix2 a b) = (V m c main_arg6 : S128x128.Idx → EReal) (ix2 a b) := by
  unfold iblk
  exact rd6 (V m c main_arg6) t a b

/-- An array staged whole like window 7's: its block at every point is the array. -/
theorem rd7 (G : S1x128.Idx → EReal) (t : Fin cfg0.N) (a : Fin 1) (b : Fin 128) :
    ((cfg0.win 7).blk t).view.read (Elt Ideal) G (ix2 a b) = G (ix2 a b) := by
  have e0 : win0_7.index t (0 : Fin 2) = 0 := (idx_fixed t).2.2.2.2.2.2.2.2.1
  have e1 : win0_7.index t (1 : Fin 2) = 0 := (idx_fixed t).2.2.2.2.2.2.2.2.2.1
  rw [View.read_apply]
  refine congrArg G ?_
  funext ax
  apply Fin.ext
  match ax with
  | ⟨0, _⟩ => show win0_7.index t 0 * 1 + 1 * a.val = a.val; rw [e0]; omega
  | ⟨1, _⟩ => show win0_7.index t 1 * 128 + 1 * b.val = b.val; rw [e1]; omega

theorem blk7 (c : Dev nD) (t : Fin cfg0.N) (a : Fin 1) (b : Fin 128) :
    (iblk m c 7 t : Vec Ideal S1x128 .f32) (ix2 a b) = (V m c main_v33 : S1x128.Idx → EReal) (ix2 a b) := by
  unfold iblk
  exact rd7 (V m c main_v33) t a b

/-- An array staged whole like window 8's: its block at every point is the array. -/
theorem rd8 (G : S128x128.Idx → EReal) (t : Fin cfg0.N) (a : Fin 128) (b : Fin 128) :
    ((cfg0.win 8).blk t).view.read (Elt Ideal) G (ix2 a b) = G (ix2 a b) := by
  have e0 : win0_8.index t (0 : Fin 2) = 0 := (idx_fixed t).2.2.2.2.2.2.2.2.2.2.1
  have e1 : win0_8.index t (1 : Fin 2) = 0 := (idx_fixed t).2.2.2.2.2.2.2.2.2.2.2.1
  rw [View.read_apply]
  refine congrArg G ?_
  funext ax
  apply Fin.ext
  match ax with
  | ⟨0, _⟩ => show win0_8.index t 0 * 128 + 1 * a.val = a.val; rw [e0]; omega
  | ⟨1, _⟩ => show win0_8.index t 1 * 128 + 1 * b.val = b.val; rw [e1]; omega

theorem blk8 (c : Dev nD) (t : Fin cfg0.N) (a : Fin 128) (b : Fin 128) :
    (iblk m c 8 t : Vec Ideal S128x128 .f32) (ix2 a b) = (V m c main_v29 : S128x128.Idx → EReal) (ix2 a b) := by
  unfold iblk
  exact rd8 (V m c main_v29) t a b

/-- An array staged whole like window 9's: its block at every point is the array. -/
theorem rd9 (G : S128x128.Idx → EReal) (t : Fin cfg0.N) (a : Fin 128) (b : Fin 128) :
    ((cfg0.win 9).blk t).view.read (Elt Ideal) G (ix2 a b) = G (ix2 a b) := by
  have e0 : win0_9.index t (0 : Fin 2) = 0 := (idx_fixed t).2.2.2.2.2.2.2.2.2.2.2.2.1
  have e1 : win0_9.index t (1 : Fin 2) = 0 := (idx_fixed t).2.2.2.2.2.2.2.2.2.2.2.2.2.1
  rw [View.read_apply]
  refine congrArg G ?_
  funext ax
  apply Fin.ext
  match ax with
  | ⟨0, _⟩ => show win0_9.index t 0 * 128 + 1 * a.val = a.val; rw [e0]; omega
  | ⟨1, _⟩ => show win0_9.index t 1 * 128 + 1 * b.val = b.val; rw [e1]; omega

theorem blk9 (c : Dev nD) (t : Fin cfg0.N) (a : Fin 128) (b : Fin 128) :
    (iblk m c 9 t : Vec Ideal S128x128 .f32) (ix2 a b) = (V m c main_v30 : S128x128.Idx → EReal) (ix2 a b) := by
  unfold iblk
  exact rd9 (V m c main_v30) t a b

/-- An array staged whole like window 10's: its block at every point is the array. -/
theorem rd10 (G : S1x128.Idx → EReal) (t : Fin cfg0.N) (a : Fin 1) (b : Fin 128) :
    ((cfg0.win 10).blk t).view.read (Elt Ideal) G (ix2 a b) = G (ix2 a b) := by
  have e0 : win0_10.index t (0 : Fin 2) = 0 := (idx_fixed t).2.2.2.2.2.2.2.2.2.2.2.2.2.2.1
  have e1 : win0_10.index t (1 : Fin 2) = 0 := (idx_fixed t).2.2.2.2.2.2.2.2.2.2.2.2.2.2.2.1
  rw [View.read_apply]
  refine congrArg G ?_
  funext ax
  apply Fin.ext
  match ax with
  | ⟨0, _⟩ => show win0_10.index t 0 * 1 + 1 * a.val = a.val; rw [e0]; omega
  | ⟨1, _⟩ => show win0_10.index t 1 * 128 + 1 * b.val = b.val; rw [e1]; omega

theorem blk10 (c : Dev nD) (t : Fin cfg0.N) (a : Fin 1) (b : Fin 128) :
    (iblk m c 10 t : Vec Ideal S1x128 .f32) (ix2 a b) = (V m c main_v31 : S1x128.Idx → EReal) (ix2 a b) := by
  unfold iblk
  exact rd10 (V m c main_v31) t a b

/-- An array staged whole like window 11's: its block at every point is the array. -/
theorem rd11 (G : S1x128.Idx → EReal) (t : Fin cfg0.N) (a : Fin 1) (b : Fin 128) :
    ((cfg0.win 11).blk t).view.read (Elt Ideal) G (ix2 a b) = G (ix2 a b) := by
  have e0 : win0_11.index t (0 : Fin 2) = 0 := (idx_fixed t).2.2.2.2.2.2.2.2.2.2.2.2.2.2.2.2.1
  have e1 : win0_11.index t (1 : Fin 2) = 0 := (idx_fixed t).2.2.2.2.2.2.2.2.2.2.2.2.2.2.2.2.2.1
  rw [View.read_apply]
  refine congrArg G ?_
  funext ax
  apply Fin.ext
  match ax with
  | ⟨0, _⟩ => show win0_11.index t 0 * 1 + 1 * a.val = a.val; rw [e0]; omega
  | ⟨1, _⟩ => show win0_11.index t 1 * 128 + 1 * b.val = b.val; rw [e1]; omega

theorem blk11 (c : Dev nD) (t : Fin cfg0.N) (a : Fin 1) (b : Fin 128) :
    (iblk m c 11 t : Vec Ideal S1x128 .f32) (ix2 a b) = (V m c main_v34 : S1x128.Idx → EReal) (ix2 a b) := by
  unfold iblk
  exact rd11 (V m c main_v34) t a b

/-- An array staged whole like window 12's: its block at every point is the array. -/
theorem rd12 (G : S128x128.Idx → EReal) (t : Fin cfg0.N) (a : Fin 128) (b : Fin 128) :
    ((cfg0.win 12).blk t).view.read (Elt Ideal) G (ix2 a b) = G (ix2 a b) := by
  have e0 : win0_12.index t (0 : Fin 2) = 0 := (idx_fixed t).2.2.2.2.2.2.2.2.2.2.2.2.2.2.2.2.2.2.1
  have e1 : win0_12.index t (1 : Fin 2) = 0 := (idx_fixed t).2.2.2.2.2.2.2.2.2.2.2.2.2.2.2.2.2.2.2.1
  rw [View.read_apply]
  refine congrArg G ?_
  funext ax
  apply Fin.ext
  match ax with
  | ⟨0, _⟩ => show win0_12.index t 0 * 128 + 1 * a.val = a.val; rw [e0]; omega
  | ⟨1, _⟩ => show win0_12.index t 1 * 128 + 1 * b.val = b.val; rw [e1]; omega

theorem blk12 (c : Dev nD) (t : Fin cfg0.N) (a : Fin 128) (b : Fin 128) :
    (iblk m c 12 t : Vec Ideal S128x128 .f32) (ix2 a b) = (V m c main_arg10 : S128x128.Idx → EReal) (ix2 a b) := by
  unfold iblk
  exact rd12 (V m c main_arg10) t a b

/-- An array staged whole like window 13's: its block at every point is the array. -/
theorem rd13 (G : S1x128.Idx → EReal) (t : Fin cfg0.N) (a : Fin 1) (b : Fin 128) :
    ((cfg0.win 13).blk t).view.read (Elt Ideal) G (ix2 a b) = G (ix2 a b) := by
  have e0 : win0_13.index t (0 : Fin 2) = 0 := (idx_fixed t).2.2.2.2.2.2.2.2.2.2.2.2.2.2.2.2.2.2.2.2.1
  have e1 : win0_13.index t (1 : Fin 2) = 0 := (idx_fixed t).2.2.2.2.2.2.2.2.2.2.2.2.2.2.2.2.2.2.2.2.2.1
  rw [View.read_apply]
  refine congrArg G ?_
  funext ax
  apply Fin.ext
  match ax with
  | ⟨0, _⟩ => show win0_13.index t 0 * 1 + 1 * a.val = a.val; rw [e0]; omega
  | ⟨1, _⟩ => show win0_13.index t 1 * 128 + 1 * b.val = b.val; rw [e1]; omega

theorem blk13 (c : Dev nD) (t : Fin cfg0.N) (a : Fin 1) (b : Fin 128) :
    (iblk m c 13 t : Vec Ideal S1x128 .f32) (ix2 a b) = (V m c main_v35 : S1x128.Idx → EReal) (ix2 a b) := by
  unfold iblk
  exact rd13 (V m c main_v35) t a b

/-- An array staged whole like window 14's: its block at every point is the array. -/
theorem rd14 (G : S128x1.Idx → EReal) (t : Fin cfg0.N) (a : Fin 128) (b : Fin 1) :
    ((cfg0.win 14).blk t).view.read (Elt Ideal) G (ix2 a b) = G (ix2 a b) := by
  have e0 : win0_14.index t (0 : Fin 2) = 0 := (idx_fixed t).2.2.2.2.2.2.2.2.2.2.2.2.2.2.2.2.2.2.2.2.2.2.1
  have e1 : win0_14.index t (1 : Fin 2) = 0 := (idx_fixed t).2.2.2.2.2.2.2.2.2.2.2.2.2.2.2.2.2.2.2.2.2.2.2.1
  rw [View.read_apply]
  refine congrArg G ?_
  funext ax
  apply Fin.ext
  match ax with
  | ⟨0, _⟩ => show win0_14.index t 0 * 128 + 1 * a.val = a.val; rw [e0]; omega
  | ⟨1, _⟩ => show win0_14.index t 1 * 1 + 1 * b.val = b.val; rw [e1]; omega

theorem blk14 (c : Dev nD) (t : Fin cfg0.N) (a : Fin 128) (b : Fin 1) :
    (iblk m c 14 t : Vec Ideal S128x1 .f32) (ix2 a b) = (V m c main_arg12 : S128x1.Idx → EReal) (ix2 a b) := by
  unfold iblk
  exact rd14 (V m c main_arg12) t a b

/-- An array staged whole like window 15's: its block at every point is the array. -/
theorem rd15 (G : S1x1.Idx → EReal) (t : Fin cfg0.N) (a : Fin 1) (b : Fin 1) :
    ((cfg0.win 15).blk t).view.read (Elt Ideal) G (ix2 a b) = G (ix2 a b) := by
  have e0 : win0_15.index t (0 : Fin 2) = 0 := (idx_fixed t).2.2.2.2.2.2.2.2.2.2.2.2.2.2.2.2.2.2.2.2.2.2.2.2.1
  have e1 : win0_15.index t (1 : Fin 2) = 0 := (idx_fixed t).2.2.2.2.2.2.2.2.2.2.2.2.2.2.2.2.2.2.2.2.2.2.2.2.2
  rw [View.read_apply]
  refine congrArg G ?_
  funext ax
  apply Fin.ext
  match ax with
  | ⟨0, _⟩ => show win0_15.index t 0 * 1 + 1 * a.val = a.val; rw [e0]; omega
  | ⟨1, _⟩ => show win0_15.index t 1 * 1 + 1 * b.val = b.val; rw [e1]; omega

theorem blk15 (c : Dev nD) (t : Fin cfg0.N) (a : Fin 1) (b : Fin 1) :
    (iblk m c 15 t : Vec Ideal S1x1 .f32) (ix2 a b) = (V m c main_v36 : S1x1.Idx → EReal) (ix2 a b) := by
  unfold iblk
  exact rd15 (V m c main_v36) t a b

/-! ## Each block entry as the argument arrays' -/

theorem row_x (c : Dev nD) (t : Fin cfg0.N) (r : Fin 5000) (n : Fin 50000) (hn : n.val = 5000 * t.val + r.val) (k : Fin 128) :
    (iblk m c 0 t : Vec Ideal S5000x128 .f32) (ix2 r k) = (m ((c : Thread nD τ).loc main_arg0)) (ix2 n k) :=
  (blk0 m c t r n hn k).trans (congrFun (V_main_arg0 m c) (ix2 n k))
theorem row_aggx (c : Dev nD) (t : Fin cfg0.N) (r : Fin 5000) (n : Fin 50000) (hn : n.val = 5000 * t.val + r.val) (k : Fin 128) :
    (iblk m c 1 t : Vec Ideal S5000x128 .f32) (ix2 r k)
      = Cert.Gin.aggCol (Cert.Gin.srcArr (m ((c : Thread nD τ).loc main_arg3))) (Cert.Gin.dstArr (m ((c : Thread nD τ).loc main_arg3))) (fun r' => (m ((c : Thread nD τ).loc main_arg0)) (ix2 r' k)) n :=
  (blk1 m c t r n hn k).trans (Cert.Gin.KHost.V13_apply m c n k)
theorem row_t (c : Dev nD) (t : Fin cfg0.N) (r : Fin 5000) (n : Fin 50000) (hn : n.val = 5000 * t.val + r.val) :
    (iblk m c 2 t : Vec Ideal S5000x2 .f32) (ix2 r 0) = (m ((c : Thread nD τ).loc main_arg1)) (ix1 n) :=
  (blk2 m c t r n hn 0).trans (Cert.Gin.KHost.V26_apply0 m c n)
theorem row_aggt (c : Dev nD) (t : Fin cfg0.N) (r : Fin 5000) (n : Fin 50000) (hn : n.val = 5000 * t.val + r.val) :
    (iblk m c 2 t : Vec Ideal S5000x2 .f32) (ix2 r 1)
      = Cert.Gin.aggCol (Cert.Gin.srcArr (m ((c : Thread nD τ).loc main_arg3))) (Cert.Gin.dstArr (m ((c : Thread nD τ).loc main_arg3))) (fun r' => (m ((c : Thread nD τ).loc main_arg1)) (ix1 r')) n :=
  (blk2 m c t r n hn 1).trans (Cert.Gin.KHost.V26_apply1 m c n)
theorem w_W1x (c : Dev nD) (t : Fin cfg0.N) (k j : Fin 128) : (iblk m c 3 t : Vec Ideal S128x128 .f32) (ix2 k j) = (m ((c : Thread nD τ).loc main_arg4)) (ix2 ⟨k.val, by omega⟩ j) :=
  (blk3 m c t k j).trans (Cert.Gin.KHost.V27_apply m c k j)
theorem w_W1t (c : Dev nD) (t : Fin cfg0.N) (j : Fin 128) : (iblk m c 4 t : Vec Ideal S1x128 .f32) (ix2 0 j) = (m ((c : Thread nD τ).loc main_arg4)) (ix2 ⟨128, by omega⟩ j) :=
  (blk4 m c t 0 j).trans (Cert.Gin.KHost.V28_apply m c j)
theorem w_b1 (c : Dev nD) (t : Fin cfg0.N) (j : Fin 128) : (iblk m c 5 t : Vec Ideal S1x128 .f32) (ix2 0 j) = (m ((c : Thread nD τ).loc main_arg5)) (ix1 j) :=
  (blk5 m c t 0 j).trans (Cert.Gin.KHost.V32_apply m c j)
theorem w_W2 (c : Dev nD) (t : Fin cfg0.N) (k j : Fin 128) : (iblk m c 6 t : Vec Ideal S128x128 .f32) (ix2 k j) = (m ((c : Thread nD τ).loc main_arg6)) (ix2 k j) :=
  (blk6 m c t k j).trans (congrFun (V_main_arg6 m c) (ix2 k j))
theorem w_b2 (c : Dev nD) (t : Fin cfg0.N) (j : Fin 128) : (iblk m c 7 t : Vec Ideal S1x128 .f32) (ix2 0 j) = (m ((c : Thread nD τ).loc main_arg7)) (ix1 j) :=
  (blk7 m c t 0 j).trans (Cert.Gin.KHost.V33_apply m c j)
theorem w_P1h (c : Dev nD) (t : Fin cfg0.N) (k j : Fin 128) : (iblk m c 8 t : Vec Ideal S128x128 .f32) (ix2 k j) = (m ((c : Thread nD τ).loc main_arg8)) (ix2 ⟨k.val, by omega⟩ j) :=
  (blk8 m c t k j).trans (Cert.Gin.KHost.V29_apply m c k j)
theorem w_P1x (c : Dev nD) (t : Fin cfg0.N) (k j : Fin 128) : (iblk m c 9 t : Vec Ideal S128x128 .f32) (ix2 k j) = (m ((c : Thread nD τ).loc main_arg8)) (ix2 ⟨128 + k.val, by omega⟩ j) :=
  (blk9 m c t k j).trans (Cert.Gin.KHost.V30_apply m c k j)
theorem w_P1t (c : Dev nD) (t : Fin cfg0.N) (j : Fin 128) : (iblk m c 10 t : Vec Ideal S1x128 .f32) (ix2 0 j) = (m ((c : Thread nD τ).loc main_arg8)) (ix2 ⟨256, by omega⟩ j) :=
  (blk10 m c t 0 j).trans (Cert.Gin.KHost.V31_apply m c j)
theorem w_pb1 (c : Dev nD) (t : Fin cfg0.N) (j : Fin 128) : (iblk m c 11 t : Vec Ideal S1x128 .f32) (ix2 0 j) = (m ((c : Thread nD τ).loc main_arg9)) (ix1 j) :=
  (blk11 m c t 0 j).trans (Cert.Gin.KHost.V34_apply m c j)
theorem w_P2 (c : Dev nD) (t : Fin cfg0.N) (k j : Fin 128) : (iblk m c 12 t : Vec Ideal S128x128 .f32) (ix2 k j) = (m ((c : Thread nD τ).loc main_arg10)) (ix2 k j) :=
  (blk12 m c t k j).trans (congrFun (V_main_arg10 m c) (ix2 k j))
theorem w_pb2 (c : Dev nD) (t : Fin cfg0.N) (j : Fin 128) : (iblk m c 13 t : Vec Ideal S1x128 .f32) (ix2 0 j) = (m ((c : Thread nD τ).loc main_arg11)) (ix1 j) :=
  (blk13 m c t 0 j).trans (Cert.Gin.KHost.V35_apply m c j)
theorem w_P3 (c : Dev nD) (t : Fin cfg0.N) (k : Fin 128) : (iblk m c 14 t : Vec Ideal S128x1 .f32) (ix2 k 0) = (m ((c : Thread nD τ).loc main_arg12)) (ix2 k 0) :=
  (blk14 m c t k 0).trans (congrFun (V_main_arg12 m c) (ix2 k 0))
theorem w_pb3 (c : Dev nD) (t : Fin cfg0.N) : (iblk m c 15 t : Vec Ideal S1x1 .f32) (ix2 0 0) = (m ((c : Thread nD τ).loc main_arg13)) (ix1 0) :=
  (blk15 m c t 0 0).trans (Cert.Gin.KHost.V36_apply m c)

end Cert.Gin.KRun

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyLow.lean ====
/-
  The small readings the kernel body's arithmetic is made of, each at an entry given by coordinates: the time
  column and the aggregated time column cut out of the [5000, 2] block, and the two matrix products the body
  uses (128 contracted entries, into 128 columns or into one) accumulated into zero.
-/
import proofs.«132804_j17411797418333_2_alg».proof.Proof.Gen.KernelIdeal.Frame
import proofs.«132804_j17411797418333_2_alg».proof.Proof.Spec
import proofs.«132804_j17411797418333_2_alg».proof.Proof.LibMatmulIdx
import proofs.«132804_j17411797418333_2_alg».proof.Proof.LibColumnLayout
import Idealize.ShloMosaic.Lib.ValueLayout
import Idealize.ShloMosaic.Lib.Pipeline.Value
import Idealize.ShloMosaic.PureOps.Ideal.Laws

noncomputable section

open scoped BigOperators

namespace Cert.Gin.Body

open Cert.KernelIdeal Cert.KernelIdeal.Gen Idealize.ShloMosaic Idealize.ShloMosaic.ValueIdx

/-- The offsets `[0, 0]` are the zero offsets. -/
theorem hz2 : (![0, 0] : Fin 2 → Nat) = fun _ => 0 := funext fun a => by fin_cases a <;> rfl

/-- A cast to the same shape changes nothing. -/
theorem pay2_eq (v3 : Vec Ideal S5000x2 .f32) : k0_pay2 (F := Ideal) v3 = v3 := by
  unfold k0_pay2
  exact shapeCast_self _ _

/-- The first column of the [5000, 2] block, at row r. -/
theorem pay3_apply (v3 : Vec Ideal S5000x2 .f32) (r : Fin 5000) :
    k0_pay3 (F := Ideal) v3 (ix2 r 0) = v3 (ix2 r 0) := by
  unfold k0_pay3
  rw [pay2_eq]
  exact slice2_axis1_apply 0 v3 _ r 0 0 rfl

/-- The second column of the [5000, 2] block, at row r. -/
theorem col1_apply (v3 : Vec Ideal S5000x2 .f32) (r : Fin 5000) :
    extractStridedSlice S5000x1 ![0, 1] (k0_pay2 (F := Ideal) v3) slices_S5000x2_o0_1_S5000x1 (ix2 r 0) = v3 (ix2 r 1) := by
  rw [pay2_eq]
  exact slice2_axis1_apply 1 v3 _ r 0 1 rfl

/-- A [5000, 128] by [128, 128] product into zero, at (r, j): the sum over the 128 contracted entries. -/
theorem mm128_apply {φ₁ φ₂ : FTy} (lhs : FVec Ideal S5000x128 φ₁) (rhs : FVec Ideal S128x128 φ₂) (r : Fin 5000) (j : Fin 128) :
    matmul dot_S5000x128_S128x128_S5000x128_1_0_0_1_n_n none lhs rhs (constant S5000x128 .f32 0x00000000#32) (ix2 r j)
      = ∑ k : Fin 128, lhs (ix2 r k) * rhs (ix2 k j) :=
  Cert.MatmulIdx.matmul_plain_zero_apply (M := 5000) (K := 128) (N := 128) none lhs rhs r j

/-- A [5000, 128] by [128, 1] product into zero, at (r, 0). -/
theorem mm1_apply {φ₁ φ₂ : FTy} (lhs : FVec Ideal S5000x128 φ₁) (rhs : FVec Ideal S128x1 φ₂) (r : Fin 5000) :
    matmul dot_S5000x128_S128x1_S5000x1_1_0_0_1_n_n none lhs rhs (constant S5000x1 .f32 0x00000000#32) (ix2 r 0)
      = ∑ k : Fin 128, lhs (ix2 r k) * rhs (ix2 k 0) :=
  Cert.MatmulIdx.matmul_plain_zero_apply (M := 5000) (K := 128) (N := 1) none lhs rhs r 0

/-! ## The specification's layers, named -/

/-- The first hidden layer of one node. -/
def h1 (xr ar : Fin 128 → EReal) (t a : EReal) (W1x : Fin 128 → Fin 128 → EReal) (W1t b1 : Fin 128 → EReal) :
    Fin 128 → EReal :=
  fun j => relu (((∑ k : Fin 128, (xr k + ar k) * W1x k j) + (t + a) * W1t j) + b1 j)

/-- The second hidden layer, from the first. -/
def h2 (g : Fin 128 → EReal) (W2 : Fin 128 → Fin 128 → EReal) (b2 : Fin 128 → EReal) : Fin 128 → EReal :=
  fun j => relu (Ideal.tanh ((∑ k : Fin 128, g k * W2 k j) + b2 j))

/-- The first layer of the predictor, from the second hidden layer, the node's own row and its time. -/
def y1 (g xr : Fin 128 → EReal) (t : EReal) (P1h P1x : Fin 128 → Fin 128 → EReal) (P1t pb1 : Fin 128 → EReal) :
    Fin 128 → EReal :=
  fun j => leaky (((((∑ k : Fin 128, g k * P1h k j) + (∑ k : Fin 128, xr k * P1x k j)) + t * P1t j)) + pb1 j)

/-- The second layer of the predictor, from the first. -/
def y2 (g : Fin 128 → EReal) (P2 : Fin 128 → Fin 128 → EReal) (pb2 : Fin 128 → EReal) : Fin 128 → EReal :=
  fun j => leaky ((∑ k : Fin 128, g k * P2 k j) + pb2 j)

/-- The node map is the last affine map applied to the four layers in turn. -/
theorem node_eq (xr ar : Fin 128 → EReal) (t a : EReal)
    (W1x : Fin 128 → Fin 128 → EReal) (W1t b1 : Fin 128 → EReal)
    (W2 : Fin 128 → Fin 128 → EReal) (b2 : Fin 128 → EReal)
    (P1h P1x : Fin 128 → Fin 128 → EReal) (P1t pb1 : Fin 128 → EReal)
    (P2 : Fin 128 → Fin 128 → EReal) (pb2 : Fin 128 → EReal)
    (P3 : Fin 128 → EReal) (pb3 : EReal) :
    node xr ar t a W1x W1t b1 W2 b2 P1h P1x P1t pb1 P2 pb2 P3 pb3
      = (∑ k : Fin 128, y2 (y1 (h2 (h1 xr ar t a W1x W1t b1) W2 b2) xr t P1h P1x P1t pb1) P2 pb2 k * P3 k) + pb3 := rfl

end Cert.Gin.Body

end
-- ==== Proof.LibTanhIdx.lean ====
/-
  A hyperbolic tangent of an array, read at an index.

  At the exact instance the elementwise hyperbolic tangent of an array of extended reals reads, at every index, the
  tangent of the element there — whatever the shape and the float format.
-/
import Idealize.ShloMosaic.PureOps.Ideal.Laws
import Idealize.ShloMosaic.Lib.ValueIdx

noncomputable section

namespace Cert.TanhIdx

open Idealize.ShloMosaic

/-- A hyperbolic tangent at an index is the tangent of the element. -/
theorem tanh_apply {s : Shape} {φ : FTy} (x : FVec Ideal s φ) (i : s.Idx) : tanh x i = Ideal.tanh (x i) := rfl

end Cert.TanhIdx

end
-- ==== Proof.BodyH2.lean ====
/-
  The second hidden layer as the kernel body computes it, at an entry: two matrix products into zero with the time
  column and the bias rows broadcast over the block, a maximum with zero, a hyperbolic tangent and a maximum with
  zero again; a change of float format is the identity on extended reals.
-/
import proofs.«132804_j17411797418333_2_alg».proof.Proof.Gen.KernelIdeal.Frame
import proofs.«132804_j17411797418333_2_alg».proof.Proof.Spec
import proofs.«132804_j17411797418333_2_alg».proof.Proof.LibMatmulIdx
import proofs.«132804_j17411797418333_2_alg».proof.Proof.LibColumnLayout
import Idealize.ShloMosaic.Lib.ValueLayout
import Idealize.ShloMosaic.Lib.Pipeline.Value
import Idealize.ShloMosaic.PureOps.Ideal.Laws
import proofs.«132804_j17411797418333_2_alg».proof.Proof.BodyLow
import proofs.«132804_j17411797418333_2_alg».proof.Proof.LibTanhIdx

noncomputable section

open scoped BigOperators

namespace Cert.Gin.Body

open Cert.KernelIdeal Cert.KernelIdeal.Gen Idealize.ShloMosaic Idealize.ShloMosaic.ValueIdx

/-- The second hidden layer of the block, at row r and column j, is the specification's at row r of the blocks. -/
theorem pay4_apply (v0 v1 : Vec Ideal S5000x128 .f32) (v3 : Vec Ideal S5000x2 .f32) (v10 : Vec Ideal S128x128 .f32)
    (v14 v20 : Vec Ideal S1x128 .f32) (v27 : Vec Ideal S128x128 .f32) (v30 : Vec Ideal S1x128 .f32)
    (r : Fin 5000) (j : Fin 128) :
    k0_pay4 (F := Ideal) v0 v1 v3 v10 v14 v20 v27 v30 (ix2 r j)
      = h2 (h1 (fun k => v0 (ix2 r k)) (fun k => v1 (ix2 r k)) (v3 (ix2 r 0)) (v3 (ix2 r 1))
            (fun k j => v10 (ix2 k j)) (fun j => v14 (ix2 0 j)) (fun j => v20 (ix2 0 j)))
          (fun k j => v27 (ix2 k j)) (fun j => v30 (ix2 0 j)) j := by
  unfold k0_pay4
  simp only [truncf_apply, maximumf_apply, addf_apply, mulf_apply, broadcast_apply, shapeCast_self, mm128_apply,
    broadcastTo_a1_ab_apply, broadcastTo_1b_ab_apply, pay3_apply, col1_apply, Cert.TanhIdx.tanh_apply]
  rfl

end Cert.Gin.Body

end
-- ==== Proof.BodyY2.lean ====
/-
  The predictor's second layer as the kernel body computes it, at an entry: three matrix products into zero, the time
  column and the bias rows broadcast over the block, and twice the leaky rectifier written as a comparison with
  zero and a selection between the value and the slope times the value.
-/
import proofs.«132804_j17411797418333_2_alg».proof.Proof.Gen.KernelIdeal.Frame
import proofs.«132804_j17411797418333_2_alg».proof.Proof.Spec
import proofs.«132804_j17411797418333_2_alg».proof.Proof.LibMatmulIdx
import proofs.«132804_j17411797418333_2_alg».proof.Proof.LibColumnLayout
import Idealize.ShloMosaic.Lib.ValueLayout
import Idealize.ShloMosaic.Lib.Pipeline.Value
import Idealize.ShloMosaic.PureOps.Ideal.Laws
import proofs.«132804_j17411797418333_2_alg».proof.Proof.BodyLow

noncomputable section

open scoped BigOperators

namespace Cert.Gin.Body

open Cert.KernelIdeal Cert.KernelIdeal.Gen Idealize.ShloMosaic Idealize.ShloMosaic.ValueIdx

/-- The predictor's second layer of the block, at row r and column j, from a second hidden layer g whose row r is
    known entry by entry. -/
theorem pay5_apply (v0 : Vec Ideal S5000x128 .f32) (v5 : FVec Ideal S5000x1 .f32) (v37 : FVec Ideal S5000x128 .bf16)
    (v38 v43 : Vec Ideal S128x128 .f32) (v48 v54 : Vec Ideal S1x128 .f32) (v64 : Vec Ideal S128x128 .f32)
    (v67 : Vec Ideal S1x128 .f32) (r : Fin 5000) (j : Fin 128) :
    k0_pay5 (F := Ideal) v0 v5 v37 v38 v43 v48 v54 v64 v67 (ix2 r j)
      = y2 (y1 (fun k => v37 (ix2 r k)) (fun k => v0 (ix2 r k)) (v5 (ix2 r 0))
            (fun k j => v38 (ix2 k j)) (fun k j => v43 (ix2 k j)) (fun j => v48 (ix2 0 j)) (fun j => v54 (ix2 0 j)))
          (fun k j => v64 (ix2 k j)) (fun j => v67 (ix2 0 j)) j := by
  unfold k0_pay5
  simp only [truncf_apply, addf_apply, mulf_apply, broadcast_apply, shapeCast_self, mm128_apply,
    broadcastTo_a1_ab_apply, broadcastTo_1b_ab_apply, cmpf_apply, select_apply]
  rfl

end Cert.Gin.Body

end
-- ==== Proof.BodyValue.lean ====
/-
  The kernel body read at one row. The body loads its sixteen input blocks whole and stores one [5000, 1] block, so
  what the output buffer holds afterwards is the stored value itself, over the blocks themselves; and row r of that
  value is the specification's node map of row r of the blocks: the two hidden layers, the predictor's two layers
  with the leaky rectifier, and a last product with the [128, 1] weights plus the one bias entry broadcast down the
  column.
-/
import proofs.«132804_j17411797418333_2_alg».proof.Proof.Gen.KernelIdeal.Frame
import proofs.«132804_j17411797418333_2_alg».proof.Proof.Spec
import proofs.«132804_j17411797418333_2_alg».proof.Proof.LibMatmulIdx
import proofs.«132804_j17411797418333_2_alg».proof.Proof.LibColumnLayout
import Idealize.ShloMosaic.Lib.ValueLayout
import Idealize.ShloMosaic.Lib.Pipeline.Value
import Idealize.ShloMosaic.PureOps.Ideal.Laws
import proofs.«132804_j17411797418333_2_alg».proof.Proof.BodyLow
import proofs.«132804_j17411797418333_2_alg».proof.Proof.BodyH2
import proofs.«132804_j17411797418333_2_alg».proof.Proof.BodyY2

noncomputable section

open scoped BigOperators

namespace Cert.Gin.Body

open Cert.KernelIdeal Cert.KernelIdeal.Gen Idealize.ShloMosaic Idealize.ShloMosaic.ValueIdx

/-- The last affine map of the block, at row r: the product with the [128, 1] weights plus the bias entry. -/
theorem pay1_apply (v76 : FVec Ideal S5000x128 .bf16) (v77 : Vec Ideal S128x1 .f32) (v80 : Vec Ideal S1x1 .f32)
    (r : Fin 5000) :
    k0_pay1 (F := Ideal) v76 v77 v80 (ix2 r 0) = (∑ k : Fin 128, v76 (ix2 r k) * v77 (ix2 k 0)) + v80 (ix2 0 0) := by
  unfold k0_pay1
  simp only [truncf_apply, addf_apply, shapeCast_self, mm1_apply, broadcastTo_1b_ab_apply]

/-- ROW r OF THE BLOCK THE BODY STORES is the node map of row r of the input blocks. -/
theorem out_row (x0 x1 : Vec Ideal S5000x128 .f32) (x2 : Vec Ideal S5000x2 .f32) (x3 : Vec Ideal S128x128 .f32)
    (x4 x5 : Vec Ideal S1x128 .f32) (x6 : Vec Ideal S128x128 .f32) (x7 : Vec Ideal S1x128 .f32)
    (x8 x9 : Vec Ideal S128x128 .f32) (x10 x11 : Vec Ideal S1x128 .f32) (x12 : Vec Ideal S128x128 .f32)
    (x13 : Vec Ideal S1x128 .f32) (x14 : Vec Ideal S128x1 .f32) (x15 : Vec Ideal S1x1 .f32) (r : Fin 5000) :
    Cert.KernelIdeal.Gen.out0_16 (F := Ideal) x0 x1 x2 x3 x4 x5 x6 x7 x8 x9 x10 x11 x12 x13 x14 x15 (ix2 r 0)
      = Cert.Gin.node (fun k => x0 (ix2 r k)) (fun k => x1 (ix2 r k)) (x2 (ix2 r 0)) (x2 (ix2 r 1))
          (fun k j => x3 (ix2 k j)) (fun j => x4 (ix2 0 j)) (fun j => x5 (ix2 0 j))
          (fun k j => x6 (ix2 k j)) (fun j => x7 (ix2 0 j))
          (fun k j => x8 (ix2 k j)) (fun k j => x9 (ix2 k j)) (fun j => x10 (ix2 0 j)) (fun j => x11 (ix2 0 j))
          (fun k j => x12 (ix2 k j)) (fun j => x13 (ix2 0 j)) (fun k => x14 (ix2 k 0)) (x15 (ix2 0 0)) := by
  unfold Cert.KernelIdeal.Gen.out0_16
  rw [View.canon_unit_zero hz2]
  simp only [View.ld_unit_zero (S := S5000x128) hz2, View.ld_unit_zero (S := S5000x2) hz2,
    View.ld_unit_zero (S := S128x128) hz2, View.ld_unit_zero (S := S1x128) hz2,
    View.ld_unit_zero (S := S128x1) hz2, View.ld_unit_zero (S := S1x1) hz2]
  rw [node_eq, pay1_apply]
  simp only [pay5_apply, pay4_apply, pay3_apply]

end Cert.Gin.Body

end
-- ==== Proof.KernelRun.lean ====
/-
  The kernel program's run, read as the specification.

  Row r of the block that grid point t stores is the node map of row r of the point's input blocks (the body
  read at one row); those rows are node 5000·t + r's entries of the argument arrays (the block reads); so point t
  writes back block t of the specification's output array. The ten blocks are rows 0..4999, 5000..9999, … and
  together cover all 50000 nodes, so after the region the output array IS the specification's. The program's
  other result is a zero array written by a host operation after the region. The arguments end unchanged.
-/
import proofs.«132804_j17411797418333_2_alg».proof.Proof.KernelBlocks
import proofs.«132804_j17411797418333_2_alg».proof.Proof.BodyValue
import Idealize.ShloMosaic.Lib.StableHlo.Run

set_option maxRecDepth 16384
set_option Elab.async false

noncomputable section

open Idealize.ShloMosaic Idealize.ShloMosaic.TcCoe Idealize.SL.Sem Idealize.ShloMosaic.ValueIdx
open Idealize.ShloMosaic.Pipeline (Dat)

namespace Cert.Gin.KRun

open Cert.KernelIdeal Cert.KernelIdeal.Gen

variable (m : (ℓ : Loc nD τ sig) → Buf (Elt Ideal) ℓ) (ρ : Dev nD → PrngReg)

/-! ## What a grid point writes back, the cover, and the array after the run -/

/-- The node a block row is: point t's row r is node 5000·t + r. -/
def nodeOf (t : Fin cfg0.N) (r : Fin 5000) : Fin 50000 :=
  ⟨5000 * t.val + r.val, by have h1 : t.val < 10 := t.isLt; have h2 := r.isLt; omega⟩

/-- Point t writes back block t of the specification's output array. -/
theorem flushed_eq (c : Dev nD) (t : Fin cfg0.N) :
    (dats m 0 c).flushed 16 t = ((cfg0.win 16).blk t).view.read (Elt Ideal) (Cert.Gin.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show (cfg0.win 16).cut (grid0.coords t) ((dats m 0 c).after 16 t) = _
  rw [after0_16]
  funext y
  obtain ⟨r, u, rfl⟩ : ∃ (r : Fin 5000) (u : Fin 1), y = ix2 r u := ⟨y 0, y 1, eq_ix2 y⟩
  obtain rfl : u = 0 := Subsingleton.elim _ _
  have e0 : win0_16.index t (0 : Fin 2) = t.val := (idx_moving t).2.2.2.2.2.2.1
  have e1 : win0_16.index t (1 : Fin 2) = 0 := (idx_moving t).2.2.2.2.2.2.2
  have hemb : ((cfg0.win 16).blk t).view.emb (ix2 r (0 : Fin 1)) = (ix2 (nodeOf t r) (0 : Fin 1) : S50000x1.Idx) := by
    funext a
    apply Fin.ext
    match a with
    | ⟨0, _⟩ => show win0_16.index t 0 * 5000 + 1 * r.val = 5000 * t.val + r.val; rw [e0]; omega
    | ⟨1, _⟩ => show win0_16.index t 1 * 1 + 1 * 0 = 0; rw [e1]
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r 0) = (Cert.Gin.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (((cfg0.win 16).blk t).view.emb (ix2 r (0 : Fin 1)))
  rw [hemb, Cert.Gin.out_apply]
  refine (Cert.Gin.Body.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r).trans ?_
  unfold Cert.Gin.outAt
  simp only [row_x m c t r (nodeOf t r) rfl, row_aggx m c t r (nodeOf t r) rfl, row_t m c t r (nodeOf t r) rfl,
    row_aggt m c t r (nodeOf t r) rfl, w_W1x m c t, w_W1t m c t, w_b1 m c t, w_W2 m c t, w_b2 m c t, w_P1h m c t, w_P1x m c t,
    w_P1t m c t, w_pb1 m c t, w_P2 m c t, w_pb2 m c t, w_P3 m c t, w_pb3 m c t]

/-- An index of the output array is in point t's block iff each coordinate is in the block's range. -/
theorem mem_blk (t : Fin cfg0.N) (i : S50000x1.Idx) :
    i ∈ ((cfg0.win 16).blk t).view.set ↔ ∀ a : Fin 2, win0_16.index t a * S5000x1.size a ≤ (i a).val ∧ (i a).val < win0_16.index t a * S5000x1.size a + S5000x1.size a := by
  show i ∈ ((View.whole main_v37).slice (win0_16.rect t)).set ↔ _
  rw [View.set_slice_whole, Rect.mem_set_unit]
  exact Iff.rfl

/-- Every node's row lies in the block of the point node / 5000. -/
theorem cover (i : S50000x1.Idx) : ∃ t : Fin cfg0.N, (cfg0.win 16).flush t = true ∧ i ∈ ((cfg0.win 16).blk t).view.set := by
  have hi0 : (i 0).val < 50000 := (i 0).isLt
  have hi1 : (i 1).val < 1 := (i 1).isLt
  let t : Fin cfg0.N := ⟨(i 0).val / 5000, by show (i 0).val / 5000 < 10; omega⟩
  have e0 : win0_16.index t (0 : Fin 2) = (i 0).val / 5000 := (idx_moving t).2.2.2.2.2.2.1
  have e1 : win0_16.index t (1 : Fin 2) = 0 := (idx_moving t).2.2.2.2.2.2.2
  refine ⟨t, flush0_16 t, ?_⟩
  rw [mem_blk]
  intro a
  match a with
  | ⟨0, _⟩ => show win0_16.index t (0 : Fin 2) * 5000 ≤ (i 0).val ∧ (i 0).val < win0_16.index t (0 : Fin 2) * 5000 + 5000; rw [e0]; omega
  | ⟨1, _⟩ => show win0_16.index t (1 : Fin 2) * 1 ≤ (i 1).val ∧ (i 1).val < win0_16.index t (1 : Fin 2) * 1 + 1; rw [e1]; omega

/-- The output array after the run is the specification's. -/
theorem final (c : Dev nD) : (dats m 0 c).arrAt 16 cfg0.N = Cert.Gin.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 16 (Cert.Gin.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (fun t _ => flushed_eq m c t) cover

/-! ## The host operations after the region, and the run -/

/-- The first result is a broadcast zero, written after the region. -/
theorem tail_zero (c : Dev nD) :
    Pipeline.afterTail₀ cfgs (dats m) 0 (V0 m) [hostOps1] c main_v38
      = broadcastInDim S50000x1 ![] bcast_S_S50000x1 (constant (F := Ideal) S_ .f32 0x00000000#32) := by
  unfold Pipeline.afterTail₀
  show StableHlo.after hostOps1 _ (Proc.devRef .tc main_v38) = _
  after_results

/-- The kernel program's run: the first result a broadcast zero, the second the specification's output array of the
    arguments, the arguments unchanged. -/
theorem run : θ_run (defs (F := Ideal)) (onTc (τ := τ) (main (F := Ideal))) ⟨m, fun _ => 0, ρ⟩ fun r => ∀ c : Dev nD,
      r.2.mem ((c : Thread nD τ).loc main_v38) = broadcastInDim S50000x1 ![] bcast_S_S50000x1 (constant (F := Ideal) S_ .f32 0x00000000#32)
      ∧ r.2.mem ((c : Thread nD τ).loc main_v37) = Cert.Gin.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c =>
    ⟨((h c).2 main_v38 (Pipeline.mem_restRefs_of main_v38 (by decide) (by decide))).trans (tail_zero m c),
     ((h c).1 16).trans (final m c),
     ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 12).trans (((dats m 0 c).arrAt_in 12 rfl _).trans ((A_eq m c 12).trans (V_main_arg10 m c))),
      (((h c).2 main_arg11 (Pipeline.mem_restRefs_of main_arg11 (by decide) (by decide))).trans (W_main_arg11 m (dats m) c)),
      ((h c).1 14).trans (((dats m 0 c).arrAt_in 14 rfl _).trans ((A_eq m c 14).trans (V_main_arg12 m c))),
      (((h c).2 main_arg13 (Pipeline.mem_restRefs_of main_arg13 (by decide) (by decide))).trans (W_main_arg13 m (dats m) c))⟩)
    (run_main m ρ)

end Cert.Gin.KRun

end
-- ==== Proof.RefTerm.lean ====
/-
  The reference program's result as a pure function of its argument arrays.

  The reference is a straight line of array operations: it appends the time column to the feature rows, gathers the
  rows at the edges' (wrapped) sources, adds them into a zero array at the edges' destinations, adds the result to the
  rows, and then applies five affine maps with pointwise nonlinearities between them. The stages `refXt` … `refFin`
  are that line cut into layers, each a function of the arrays the layer reads, its body the layer's operations in
  program order, every operation the one the program states; `refOut` is the layers in program order, and
  `refOut_eq` writes it as their composition.
-/
import proofs.«132804_j17411797418333_2_alg».proof.Proof.Gen.ReferenceIdeal
import Idealize.ShloMosaic.PureOps.Ideal

noncomputable section

namespace Cert.Gin.Ref

open Cert.ReferenceIdeal Cert.ReferenceIdeal.Gen Idealize.ShloMosaic

/-- The rows with the time appended as column 128: [50000, 129]. -/
def refXt (x : FVec Ideal S50000x128 .f32) (t : FVec Ideal S50000 .f32) : FVec Ideal S50000x129 .f32 :=
  let v0 : FVec Ideal S50000x1 .f32 := broadcastInDim S50000x1 ![0] bcast_S50000_S50000x1_0 t
  concatenate S50000x129 1 [⟨S50000x128, x⟩, ⟨S50000x1, v0⟩] concatenates_S50000x128_S50000x1_S50000x129_d1

/-- The edges' source indices as a column [800000, 1]: row 0 of the edge list, a negative entry moved up by 50000. -/
def refSrc (ei : IVec S2x800000 32) : IVec S800000x1 32 :=
  let v2 : IVec S1x800000 32 := extractStridedSlice S1x800000 ![0, 0] ei slices_S2x800000_S1x800000_0_0
  let v3 : IVec S800000 32 := shapeCast S800000 v2 shapeCasts_S1x800000_S800000
  let c : IVec S_ 32 := constantI S_ 32 0#32
  let v6 : IVec S800000 32 := broadcastInDim S800000 ![] bcast_S_S800000 c
  let v7 : IVec S800000 1 := cmpi .slt v3 v6
  let c_0 : IVec S_ 32 := constantI S_ 32 50000#32
  let v8 : IVec S800000 32 := broadcastInDim S800000 ![] bcast_S_S800000 c_0
  let v9 : IVec S800000 32 := addi v3 v8
  let v10 : IVec S800000 32 := select v7 v9 v3
  broadcastInDim S800000x1 ![0] bcast_S800000_S800000x1_0 v10

/-- The edges' destination indices as a column [800000, 1]: row 1 of the edge list. -/
def refDst (ei : IVec S2x800000 32) : IVec S800000x1 32 :=
  let v4 : IVec S1x800000 32 := extractStridedSlice S1x800000 ![1, 0] ei slices_S2x800000_S1x800000_1_0
  let v5 : IVec S800000 32 := shapeCast S800000 v4 shapeCasts_S1x800000_S800000
  broadcastInDim S800000x1 ![0] bcast_S800000_S800000x1_0 v5

/-- The aggregated rows [50000, 129]: the rows gathered at the sources, added into zero at the destinations. -/
def refAgg (xt : FVec Ideal S50000x129 .f32) (src dst : IVec S800000x1 32) : FVec Ideal S50000x129 .f32 :=
  let v12 : FVec Ideal S800000x129 .f32 := Host.gather gather_S50000x129_S800000x1_S800000x129_1_0_n_n_0_1_1129 xt src
  let cst : FVec Ideal S_ .f32 := constant (F := Ideal) S_ .f32 0x00000000#32
  let v13 : FVec Ideal S50000x129 .f32 := broadcastInDim S50000x129 ![] bcast_S_S50000x129 cst
  Host.scatterAdd scatter_S50000x129_S800000x1_S800000x129_1_0_0_1 v13 dst v12

/-- The first layer [50000, 128]: max((xt + agg) W1 + b1, 0). -/
def refH1 (xt agg : FVec Ideal S50000x129 .f32) (W1 : FVec Ideal S129x128 .f32) (b1 : FVec Ideal S128 .f32) :
    FVec Ideal S50000x128 .f32 :=
  let v16 : FVec Ideal S50000x129 .f32 := addf xt agg
  let v17 : FVec Ideal S50000x128 .f32 := Host.dotGeneral dot_S50000x129_S129x128_S50000x128_1_0_0_1_n_n none v16 W1
  let v18 : FVec Ideal S1x128 .f32 := broadcastInDim S1x128 ![1] bcast_S128_S1x128_1 b1
  let v19 : FVec Ideal S50000x128 .f32 := broadcastInDim S50000x128 ![0, 1] bcast_S1x128_S50000x128_0_1 v18
  let v20 : FVec Ideal S50000x128 .f32 := addf v17 v19
  let call0_cst : FVec Ideal S_ .f32 := constant (F := Ideal) S_ .f32 0x00000000#32
  let call0_v0 : FVec Ideal S50000x128 .f32 := broadcastInDim S50000x128 ![] bcast_S_S50000x128 call0_cst
  maximumf v20 call0_v0

/-- The second layer [50000, 128]: max(tanh(h1 W2 + b2), 0). -/
def refH2 (h1 : FVec Ideal S50000x128 .f32) (W2 : FVec Ideal S128x128 .f32) (b2 : FVec Ideal S128 .f32) :
    FVec Ideal S50000x128 .f32 :=
  let v22 : FVec Ideal S50000x128 .f32 := Host.dotGeneral dot_S50000x128_S128x128_S50000x128_1_0_0_1_n_n none h1 W2
  let v23 : FVec Ideal S1x128 .f32 := broadcastInDim S1x128 ![1] bcast_S128_S1x128_1 b2
  let v24 : FVec Ideal S50000x128 .f32 := broadcastInDim S50000x128 ![0, 1] bcast_S1x128_S50000x128_0_1 v23
  let v25 : FVec Ideal S50000x128 .f32 := addf v22 v24
  let v26 : FVec Ideal S50000x128 .f32 := Host.tanh v25
  let call1_cst : FVec Ideal S_ .f32 := constant (F := Ideal) S_ .f32 0x00000000#32
  let call1_v0 : FVec Ideal S50000x128 .f32 := broadcastInDim S50000x128 ![] bcast_S_S50000x128 call1_cst
  maximumf v26 call1_v0

/-- The third layer [50000, 128]: leaky((h2 | xt) P1 + pb1), the 257 wide row the concatenation of h2 and xt. -/
def refY1 (h2 : FVec Ideal S50000x128 .f32) (xt : FVec Ideal S50000x129 .f32) (P1 : FVec Ideal S257x128 .f32)
    (pb1 : FVec Ideal S128 .f32) : FVec Ideal S50000x128 .f32 :=
  let v28 : FVec Ideal S50000x257 .f32 :=
    concatenate S50000x257 1 [⟨S50000x128, h2⟩, ⟨S50000x129, xt⟩] concatenates_S50000x128_S50000x129_S50000x257_d1
  let v29 : FVec Ideal S50000x128 .f32 := Host.dotGeneral dot_S50000x257_S257x128_S50000x128_1_0_0_1_n_n none v28 P1
  let v30 : FVec Ideal S1x128 .f32 := broadcastInDim S1x128 ![1] bcast_S128_S1x128_1 pb1
  let v31 : FVec Ideal S50000x128 .f32 := broadcastInDim S50000x128 ![0, 1] bcast_S1x128_S50000x128_0_1 v30
  let v32 : FVec Ideal S50000x128 .f32 := addf v29 v31
  let cst_1 : FVec Ideal S_ .f32 := constant (F := Ideal) S_ .f32 0x3E4CCCCD#32
  let call2_cst : FVec Ideal S_ .f32 := constant (F := Ideal) S_ .f32 0x00000000#32
  let call2_v0 : FVec Ideal S50000x128 .f32 := broadcastInDim S50000x128 ![] bcast_S_S50000x128 call2_cst
  let call2_v1 : IVec S50000x128 1 := cmpf .oge v32 call2_v0
  let call2_v2 : FVec Ideal S_ .f32 := id cst_1
  let call2_v3 : FVec Ideal S50000x128 .f32 := broadcastInDim S50000x128 ![] bcast_S_S50000x128 call2_v2
  let call2_v4 : FVec Ideal S50000x128 .f32 := mulf call2_v3 v32
  select call2_v1 v32 call2_v4

/-- The fourth layer [50000, 128]: leaky(y1 P2 + pb2). -/
def refY2 (y1 : FVec Ideal S50000x128 .f32) (P2 : FVec Ideal S128x128 .f32) (pb2 : FVec Ideal S128 .f32) :
    FVec Ideal S50000x128 .f32 :=
  let v34 : FVec Ideal S50000x128 .f32 := Host.dotGeneral dot_S50000x128_S128x128_S50000x128_1_0_0_1_n_n none y1 P2
  let v35 : FVec Ideal S1x128 .f32 := broadcastInDim S1x128 ![1] bcast_S128_S1x128_1 pb2
  let v36 : FVec Ideal S50000x128 .f32 := broadcastInDim S50000x128 ![0, 1] bcast_S1x128_S50000x128_0_1 v35
  let v37 : FVec Ideal S50000x128 .f32 := addf v34 v36
  let cst_2 : FVec Ideal S_ .f32 := constant (F := Ideal) S_ .f32 0x3E4CCCCD#32
  let call3_cst : FVec Ideal S_ .f32 := constant (F := Ideal) S_ .f32 0x00000000#32
  let call3_v0 : FVec Ideal S50000x128 .f32 := broadcastInDim S50000x128 ![] bcast_S_S50000x128 call3_cst
  let call3_v1 : IVec S50000x128 1 := cmpf .oge v37 call3_v0
  let call3_v2 : FVec Ideal S_ .f32 := id cst_2
  let call3_v3 : FVec Ideal S50000x128 .f32 := broadcastInDim S50000x128 ![] bcast_S_S50000x128 call3_v2
  let call3_v4 : FVec Ideal S50000x128 .f32 := mulf call3_v3 v37
  select call3_v1 v37 call3_v4

/-- The last layer [50000, 1]: y2 P3 + pb3. -/
def refFin (y2 : FVec Ideal S50000x128 .f32) (P3 : FVec Ideal S128x1 .f32) (pb3 : FVec Ideal S1 .f32) :
    FVec Ideal S50000x1 .f32 :=
  let v39 : FVec Ideal S50000x1 .f32 := Host.dotGeneral dot_S50000x128_S128x1_S50000x1_1_0_0_1_n_n none y2 P3
  let v40 : FVec Ideal S1x1 .f32 := broadcastInDim S1x1 ![1] bcast_S1_S1x1_1 pb3
  let v41 : FVec Ideal S50000x1 .f32 := broadcastInDim S50000x1 ![0, 1] bcast_S1x1_S50000x1_0_1 v40
  addf v39 v41

/-- The reference's result (its second, the first being a zero array): the layers in program order. -/
def refOut (x : FVec Ideal S50000x128 .f32) (t : FVec Ideal S50000 .f32) (ei : IVec S2x800000 32)
    (W1 : FVec Ideal S129x128 .f32) (b1 : FVec Ideal S128 .f32) (W2 : FVec Ideal S128x128 .f32) (b2 : FVec Ideal S128 .f32)
    (P1 : FVec Ideal S257x128 .f32) (pb1 : FVec Ideal S128 .f32) (P2 : FVec Ideal S128x128 .f32) (pb2 : FVec Ideal S128 .f32)
    (P3 : FVec Ideal S128x1 .f32) (pb3 : FVec Ideal S1 .f32) : FVec Ideal S50000x1 .f32 :=
  let v1 : FVec Ideal S50000x129 .f32 := refXt x t
  let v11 : IVec S800000x1 32 := refSrc ei
  let v14 : IVec S800000x1 32 := refDst ei
  let v15 : FVec Ideal S50000x129 .f32 := refAgg v1 v11 v14
  let v21 : FVec Ideal S50000x128 .f32 := refH1 v1 v15 W1 b1
  let v27 : FVec Ideal S50000x128 .f32 := refH2 v21 W2 b2
  let v33 : FVec Ideal S50000x128 .f32 := refY1 v27 v1 P1 pb1
  let v38 : FVec Ideal S50000x128 .f32 := refY2 v33 P2 pb2
  let v42 : FVec Ideal S50000x1 .f32 := refFin v38 P3 pb3
  v42

/-- The result is the composition of the layers. -/
theorem refOut_eq (x : FVec Ideal S50000x128 .f32) (t : FVec Ideal S50000 .f32) (ei : IVec S2x800000 32)
    (W1 : FVec Ideal S129x128 .f32) (b1 : FVec Ideal S128 .f32) (W2 : FVec Ideal S128x128 .f32) (b2 : FVec Ideal S128 .f32)
    (P1 : FVec Ideal S257x128 .f32) (pb1 : FVec Ideal S128 .f32) (P2 : FVec Ideal S128x128 .f32) (pb2 : FVec Ideal S128 .f32)
    (P3 : FVec Ideal S128x1 .f32) (pb3 : FVec Ideal S1 .f32) :
    refOut x t ei W1 b1 W2 b2 P1 pb1 P2 pb2 P3 pb3 =
      refFin (refY2 (refY1 (refH2 (refH1 (refXt x t) (refAgg (refXt x t) (refSrc ei) (refDst ei)) W1 b1) W2 b2)
        (refXt x t) P1 pb1) P2 pb2) P3 pb3 := rfl

end Cert.Gin.Ref

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.LibAfterConcat.lean ====
/-
  The fold of a line of host operations over two lines in a row (a general lemma file; nothing here mentions a
  particular program).

  `StableHlo.after ops V` is what the buffers hold once the operations `ops` have run in order from contents `V`.
  Running `l₁ ++ l₂` is running `l₁` and then `l₂` from what `l₁` left: this is what lets a long line be read piece
  by piece.
-/
import Idealize.ShloMosaic.Lib.StableHlo.Run

noncomputable section

namespace Cert.AfterConcat

open Idealize.ShloMosaic Idealize.ShloMosaic.StableHlo

variable {τ : Topo} {sig : RefSig} {Val : EltTy → Type}

/-- The fold over two lines in a row is the second's fold over the first's. -/
theorem after_concat (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.AfterConcat

end
-- ==== Proof.RefRun.lean ====
/-
  The reference program's run.

  The reference has no kernel: its entry function is a straight line of array operations, four of them calls of small
  outlined functions (a rectifier twice, a leaky rectifier twice, the latter calling a select). Unfolding the calls
  at their sites gives one line of sixty-six operations (`ops`), the program is that line run in order (`main_eq`),
  and every weakly fair execution of it terminates with each buffer at the line's fold over the launch contents
  (`run_main`). Reading the fold at the two result buffers gives a zero array and the composition of the layers
  (`Cert.Gin.Ref.refOut`); at an argument buffer it gives the argument back, since no operation writes one.

  The result buffer is read layer by layer: the fold is cut after each layer's last operation, the layer's result is
  read from the piece of the line that computes it, and the buffers of earlier layers are carried across later pieces
  unchanged because those pieces do not write them.
-/
import proofs.«132804_j17411797418333_2_alg».proof.Proof.RefTerm
import proofs.«132804_j17411797418333_2_alg».proof.Proof.LibTypedRead
import proofs.«132804_j17411797418333_2_alg».proof.Proof.LibTypedHEq
import proofs.«132804_j17411797418333_2_alg».proof.Proof.LibAfterConcat
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

/-- The entry function's sixty-six operations in order, the calls unfolded: a rectifier is three (the zero, its
    broadcast, the maximum), a leaky rectifier seven (the zero, its broadcast, the comparison, the slope converted to
    its own type, its broadcast, the product, the select). -/
abbrev ops : List (HloOp τ sig (Elt F)) :=
  [ unary main_arg1 main_v0 (broadcastInDim S50000x1 ![0] bcast_S50000_S50000x1_0 : (⟨S50000, .f32⟩ : BufTy).Contents (Elt F) → (⟨S50000x1, .f32⟩ : BufTy).Contents (Elt F)),
    binary main_arg0 main_v0 main_v1 ((fun a b => concatenate S50000x129 1 [⟨S50000x128, a⟩, ⟨S50000x1, b⟩] concatenates_S50000x128_S50000x1_S50000x129_d1) : (⟨S50000x128, .f32⟩ : BufTy).Contents (Elt F) → (⟨S50000x1, .f32⟩ : BufTy).Contents (Elt F) → (⟨S50000x129, .f32⟩ : BufTy).Contents (Elt F)),
    unary main_arg3 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    unary main_arg3 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_v1 main_v11 main_v12 ((fun x i => Host.gather gather_S50000x129_S800000x1_S800000x129_1_0_n_n_0_1_1129 x i) : (⟨S50000x129, .f32⟩ : BufTy).Contents (Elt F) → (⟨S800000x1, .i32⟩ : BufTy).Contents (Elt F) → (⟨S800000x129, .f32⟩ : BufTy).Contents (Elt F)),
    nullary main_cst (constant S_ .f32 0x00000000#32),
    unary main_cst main_v13 (broadcastInDim S50000x129 ![] bcast_S_S50000x129 : (⟨S_, .f32⟩ : BufTy).Contents (Elt F) → (⟨S50000x129, .f32⟩ : BufTy).Contents (Elt F)),
    unary main_v5 main_v14 (broadcastInDim S800000x1 ![0] bcast_S800000_S800000x1_0 : (⟨S800000, .i32⟩ : BufTy).Contents (Elt F) → (⟨S800000x1, .i32⟩ : BufTy).Contents (Elt F)),
    ternary main_v13 main_v14 main_v12 main_v15 ((fun x i u => Host.scatterAdd scatter_S50000x129_S800000x1_S800000x129_1_0_0_1 x i u) : (⟨S50000x129, .f32⟩ : BufTy).Contents (Elt F) → (⟨S800000x1, .i32⟩ : BufTy).Contents (Elt F) → (⟨S800000x129, .f32⟩ : BufTy).Contents (Elt F) → (⟨S50000x129, .f32⟩ : BufTy).Contents (Elt F)),
    binary main_v1 main_v15 main_v16 (addf : (⟨S50000x129, .f32⟩ : BufTy).Contents (Elt F) → (⟨S50000x129, .f32⟩ : BufTy).Contents (Elt F) → (⟨S50000x129, .f32⟩ : BufTy).Contents (Elt F)),
    binary main_v16 main_arg4 main_v17 ((fun l r => Host.dotGeneral dot_S50000x129_S129x128_S50000x128_1_0_0_1_n_n none l r) : (⟨S50000x129, .f32⟩ : BufTy).Contents (Elt F) → (⟨S129x128, .f32⟩ : BufTy).Contents (Elt F) → (⟨S50000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v20) main_call0.v0 main_call0.v1 maximumf,
    binary main_v21 main_arg6 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    unary main_v25 main_v26 (Host.tanh : (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v26) main_call1.v0 main_call1.v1 maximumf,
    binary main_v27 main_v1 main_v28 ((fun a b => concatenate S50000x257 1 [⟨S50000x128, a⟩, ⟨S50000x129, b⟩] concatenates_S50000x128_S50000x129_S50000x257_d1) : (⟨S50000x128, .f32⟩ : BufTy).Contents (Elt F) → (⟨S50000x129, .f32⟩ : BufTy).Contents (Elt F) → (⟨S50000x257, .f32⟩ : BufTy).Contents (Elt F)),
    binary main_v28 main_arg8 main_v29 ((fun l r => Host.dotGeneral dot_S50000x257_S257x128_S50000x128_1_0_0_1_n_n none l r) : (⟨S50000x257, .f32⟩ : BufTy).Contents (Elt F) → (⟨S257x128, .f32⟩ : BufTy).Contents (Elt F) → (⟨S50000x128, .f32⟩ : BufTy).Contents (Elt F)),
    unary main_arg9 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3E4CCCCD#32),
    TRef.nullary main_call2.cst (constant S_ .f32 0x00000000#32),
    TRef.unary main_call2.cst main_call2.v0 (broadcastInDim S50000x128 ![] bcast_S_S50000x128),
    TRef.binary (.of main_v32) main_call2.v0 main_call2.v1 (cmpf .oge),
    TRef.unary (.of main_cst_1) main_call2.v2 id,
    TRef.unary main_call2.v2 main_call2.v3 (broadcastInDim S50000x128 ![] bcast_S_S50000x128),
    TRef.binary main_call2.v3 (.of main_v32) main_call2.v4 mulf,
    TRef.ternary main_call2.v1 (.of main_v32) main_call2.v4 main_call2.call0.v0 select,
    binary main_v33 main_arg10 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3E4CCCCD#32),
    TRef.nullary main_call3.cst (constant S_ .f32 0x00000000#32),
    TRef.unary main_call3.cst main_call3.v0 (broadcastInDim S50000x128 ![] bcast_S_S50000x128),
    TRef.binary (.of main_v37) main_call3.v0 main_call3.v1 (cmpf .oge),
    TRef.unary (.of main_cst_2) main_call3.v2 id,
    TRef.unary main_call3.v2 main_call3.v3 (broadcastInDim S50000x128 ![] bcast_S_S50000x128),
    TRef.binary main_call3.v3 (.of main_v37) main_call3.v4 mulf,
    TRef.ternary main_call3.v1 (.of main_v37) main_call3.v4 main_call3.call0.v0 select,
    binary main_v38 main_arg12 main_v39 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg13 main_v40 (broadcastInDim S1x1 ![1] bcast_S1_S1x1_1 : (⟨S1, .f32⟩ : BufTy).Contents (Elt F) → (⟨S1x1, .f32⟩ : BufTy).Contents (Elt F)),
    unary main_v40 main_v41 (broadcastInDim S50000x1 ![0, 1] bcast_S1x1_S50000x1_0_1 : (⟨S1x1, .f32⟩ : BufTy).Contents (Elt F) → (⟨S50000x1, .f32⟩ : BufTy).Contents (Elt F)),
    binary main_v39 main_v41 main_v42 (addf : (⟨S50000x1, .f32⟩ : BufTy).Contents (Elt F) → (⟨S50000x1, .f32⟩ : BufTy).Contents (Elt F) → (⟨S50000x1, .f32⟩ : BufTy).Contents (Elt F)),
    nullary main_cst_3 (constant S_ .f32 0x00000000#32),
    unary main_cst_3 main_v43 (broadcastInDim S50000x1 ![] bcast_S_S50000x1 : (⟨S_, .f32⟩ : BufTy).Contents (Elt F) → (⟨S50000x1, .f32⟩ : BufTy).Contents (Elt F)) ]

set_option maxRecDepth 4096 in
set_option maxHeartbeats 4000000 in
/-- The entry function is that line: the callees' definitions unfolded at their calls, both sides are one chain of
    steps once sequencing is reassociated. -/
theorem main_eq (c : Dev nD) : main (F := F) c = seq ops := by
  simp only [main, fn_relu.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub ..⟩

/-- From any memory with zero counters every weakly fair execution of the entry function terminates, and every final
    state has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The time column appended to the rows. -/
def seg1 : List (HloOp τ sig (Elt F)) :=
  [ unary main_arg1 main_v0 (broadcastInDim S50000x1 ![0] bcast_S50000_S50000x1_0 : (⟨S50000, .f32⟩ : BufTy).Contents (Elt F) → (⟨S50000x1, .f32⟩ : BufTy).Contents (Elt F)),
    binary main_arg0 main_v0 main_v1 ((fun a b => concatenate S50000x129 1 [⟨S50000x128, a⟩, ⟨S50000x1, b⟩] concatenates_S50000x128_S50000x1_S50000x129_d1) : (⟨S50000x128, .f32⟩ : BufTy).Contents (Elt F) → (⟨S50000x1, .f32⟩ : BufTy).Contents (Elt F) → (⟨S50000x129, .f32⟩ : BufTy).Contents (Elt F)) ]

/-- The index columns, the gather at the sources and the sum into zero at the destinations. -/
def seg2 : List (HloOp τ sig (Elt F)) :=
  [ unary main_arg3 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    unary main_arg3 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_v1 main_v11 main_v12 ((fun x i => Host.gather gather_S50000x129_S800000x1_S800000x129_1_0_n_n_0_1_1129 x i) : (⟨S50000x129, .f32⟩ : BufTy).Contents (Elt F) → (⟨S800000x1, .i32⟩ : BufTy).Contents (Elt F) → (⟨S800000x129, .f32⟩ : BufTy).Contents (Elt F)),
    nullary main_cst (constant S_ .f32 0x00000000#32),
    unary main_cst main_v13 (broadcastInDim S50000x129 ![] bcast_S_S50000x129 : (⟨S_, .f32⟩ : BufTy).Contents (Elt F) → (⟨S50000x129, .f32⟩ : BufTy).Contents (Elt F)),
    unary main_v5 main_v14 (broadcastInDim S800000x1 ![0] bcast_S800000_S800000x1_0 : (⟨S800000, .i32⟩ : BufTy).Contents (Elt F) → (⟨S800000x1, .i32⟩ : BufTy).Contents (Elt F)),
    ternary main_v13 main_v14 main_v12 main_v15 ((fun x i u => Host.scatterAdd scatter_S50000x129_S800000x1_S800000x129_1_0_0_1 x i u) : (⟨S50000x129, .f32⟩ : BufTy).Contents (Elt F) → (⟨S800000x1, .i32⟩ : BufTy).Contents (Elt F) → (⟨S800000x129, .f32⟩ : BufTy).Contents (Elt F) → (⟨S50000x129, .f32⟩ : BufTy).Contents (Elt F)) ]

/-- The first layer. -/
def seg3 : List (HloOp τ sig (Elt F)) :=
  [ binary main_v1 main_v15 main_v16 (addf : (⟨S50000x129, .f32⟩ : BufTy).Contents (Elt F) → (⟨S50000x129, .f32⟩ : BufTy).Contents (Elt F) → (⟨S50000x129, .f32⟩ : BufTy).Contents (Elt F)),
    binary main_v16 main_arg4 main_v17 ((fun l r => Host.dotGeneral dot_S50000x129_S129x128_S50000x128_1_0_0_1_n_n none l r) : (⟨S50000x129, .f32⟩ : BufTy).Contents (Elt F) → (⟨S129x128, .f32⟩ : BufTy).Contents (Elt F) → (⟨S50000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v20) main_call0.v0 main_call0.v1 maximumf ]

/-- The second layer. -/
def seg4 : List (HloOp τ sig (Elt F)) :=
  [ binary main_v21 main_arg6 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    unary main_v25 main_v26 (Host.tanh : (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v26) main_call1.v0 main_call1.v1 maximumf ]

/-- The third layer. -/
def seg5 : List (HloOp τ sig (Elt F)) :=
  [ binary main_v27 main_v1 main_v28 ((fun a b => concatenate S50000x257 1 [⟨S50000x128, a⟩, ⟨S50000x129, b⟩] concatenates_S50000x128_S50000x129_S50000x257_d1) : (⟨S50000x128, .f32⟩ : BufTy).Contents (Elt F) → (⟨S50000x129, .f32⟩ : BufTy).Contents (Elt F) → (⟨S50000x257, .f32⟩ : BufTy).Contents (Elt F)),
    binary main_v28 main_arg8 main_v29 ((fun l r => Host.dotGeneral dot_S50000x257_S257x128_S50000x128_1_0_0_1_n_n none l r) : (⟨S50000x257, .f32⟩ : BufTy).Contents (Elt F) → (⟨S257x128, .f32⟩ : BufTy).Contents (Elt F) → (⟨S50000x128, .f32⟩ : BufTy).Contents (Elt F)),
    unary main_arg9 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3E4CCCCD#32),
    TRef.nullary main_call2.cst (constant S_ .f32 0x00000000#32),
    TRef.unary main_call2.cst main_call2.v0 (broadcastInDim S50000x128 ![] bcast_S_S50000x128),
    TRef.binary (.of main_v32) main_call2.v0 main_call2.v1 (cmpf .oge),
    TRef.unary (.of main_cst_1) main_call2.v2 id,
    TRef.unary main_call2.v2 main_call2.v3 (broadcastInDim S50000x128 ![] bcast_S_S50000x128),
    TRef.binary main_call2.v3 (.of main_v32) main_call2.v4 mulf,
    TRef.ternary main_call2.v1 (.of main_v32) main_call2.v4 main_call2.call0.v0 select ]

/-- The fourth layer. -/
def seg6 : List (HloOp τ sig (Elt F)) :=
  [ binary main_v33 main_arg10 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3E4CCCCD#32),
    TRef.nullary main_call3.cst (constant S_ .f32 0x00000000#32),
    TRef.unary main_call3.cst main_call3.v0 (broadcastInDim S50000x128 ![] bcast_S_S50000x128),
    TRef.binary (.of main_v37) main_call3.v0 main_call3.v1 (cmpf .oge),
    TRef.unary (.of main_cst_2) main_call3.v2 id,
    TRef.unary main_call3.v2 main_call3.v3 (broadcastInDim S50000x128 ![] bcast_S_S50000x128),
    TRef.binary main_call3.v3 (.of main_v37) main_call3.v4 mulf,
    TRef.ternary main_call3.v1 (.of main_v37) main_call3.v4 main_call3.call0.v0 select ]

/-- The last layer. -/
def seg7 : List (HloOp τ sig (Elt F)) :=
  [ binary main_v38 main_arg12 main_v39 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg13 main_v40 (broadcastInDim S1x1 ![1] bcast_S1_S1x1_1 : (⟨S1, .f32⟩ : BufTy).Contents (Elt F) → (⟨S1x1, .f32⟩ : BufTy).Contents (Elt F)),
    unary main_v40 main_v41 (broadcastInDim S50000x1 ![0, 1] bcast_S1x1_S50000x1_0_1 : (⟨S1x1, .f32⟩ : BufTy).Contents (Elt F) → (⟨S50000x1, .f32⟩ : BufTy).Contents (Elt F)),
    binary main_v39 main_v41 main_v42 (addf : (⟨S50000x1, .f32⟩ : BufTy).Contents (Elt F) → (⟨S50000x1, .f32⟩ : BufTy).Contents (Elt F) → (⟨S50000x1, .f32⟩ : BufTy).Contents (Elt F)) ]

/-- The zero result. -/
def seg8 : List (HloOp τ sig (Elt F)) :=
  [ nullary main_cst_3 (constant S_ .f32 0x00000000#32),
    unary main_cst_3 main_v43 (broadcastInDim S50000x1 ![] bcast_S_S50000x1 : (⟨S_, .f32⟩ : BufTy).Contents (Elt F) → (⟨S50000x1, .f32⟩ : BufTy).Contents (Elt F)) ]

/-- The line is its eight pieces in order. -/
theorem ops_split : (ops : List (HloOp τ sig (Elt F))) = seg1 ++ (seg2 ++ (seg3 ++ (seg4 ++ (seg5 ++ (seg6 ++ (seg7 ++ seg8)))))) := rfl

/-! ## What a piece leaves alone

A buffer that is none of a piece's result buffers holds after the piece what it held before. -/

theorem frame1 (W : Valuation τ sig (Elt F)) (r : Ref sig .tc)
    (h : r ∉ [main_v0, main_v1]) :
    after seg1 W (no_index (Proc.devRef .tc r)) = W (Proc.devRef .tc r) := by
  simp only [List.mem_cons, List.not_mem_nil, or_false, not_or] at h
  obtain ⟨h1, h2⟩ := h
  unfold seg1
  simp (disch := assumption) only [after_cons, after_nil, nullary_result_ne', unary_result_ne', binary_result_ne',
    ternary_result_ne', reshape_result_ne']

theorem frame2 (W : Valuation τ sig (Elt F)) (r : Ref sig .tc)
    (h : r ∉ [main_v2, main_v3, main_v4, main_v5, main_c, main_v6, main_v7, main_c_0, main_v8, main_v9, main_v10, main_v11, main_v12, main_cst, main_v13, main_v14, main_v15]) :
    after seg2 W (no_index (Proc.devRef .tc r)) = W (Proc.devRef .tc r) := by
  simp only [List.mem_cons, List.not_mem_nil, or_false, not_or] at h
  obtain ⟨h1, h2, h3, h4, h5, h6, h7, h8, h9, h10, h11, h12, h13, h14, h15, h16, h17⟩ := h
  unfold seg2
  simp (disch := assumption) only [after_cons, after_nil, nullary_result_ne', unary_result_ne', binary_result_ne',
    ternary_result_ne', reshape_result_ne']

theorem frame3 (W : Valuation τ sig (Elt F)) (r : Ref sig .tc)
    (h : r ∉ [main_v16, main_v17, main_v18, main_v19, main_v20, main_call0_cst, main_call0_v0, main_v21]) :
    after seg3 W (no_index (Proc.devRef .tc r)) = W (Proc.devRef .tc r) := by
  simp only [List.mem_cons, List.not_mem_nil, or_false, not_or] at h
  obtain ⟨h1, h2, h3, h4, h5, h6, h7, h8⟩ := h
  unfold seg3
  simp (disch := assumption) only [after_cons, after_nil, nullary_result_ne', unary_result_ne', binary_result_ne',
    ternary_result_ne', reshape_result_ne']

theorem frame4 (W : Valuation τ sig (Elt F)) (r : Ref sig .tc)
    (h : r ∉ [main_v22, main_v23, main_v24, main_v25, main_v26, main_call1_cst, main_call1_v0, main_v27]) :
    after seg4 W (no_index (Proc.devRef .tc r)) = W (Proc.devRef .tc r) := by
  simp only [List.mem_cons, List.not_mem_nil, or_false, not_or] at h
  obtain ⟨h1, h2, h3, h4, h5, h6, h7, h8⟩ := h
  unfold seg4
  simp (disch := assumption) only [after_cons, after_nil, nullary_result_ne', unary_result_ne', binary_result_ne',
    ternary_result_ne', reshape_result_ne']

theorem frame5 (W : Valuation τ sig (Elt F)) (r : Ref sig .tc)
    (h : r ∉ [main_v28, main_v29, main_v30, main_v31, main_v32, main_cst_1, main_call2_cst, main_call2_v0, main_call2_v1, main_call2_v2, main_call2_v3, main_call2_v4, main_v33]) :
    after seg5 W (no_index (Proc.devRef .tc r)) = W (Proc.devRef .tc r) := by
  simp only [List.mem_cons, List.not_mem_nil, or_false, not_or] at h
  obtain ⟨h1, h2, h3, h4, h5, h6, h7, h8, h9, h10, h11, h12, h13⟩ := h
  unfold seg5
  simp (disch := assumption) only [after_cons, after_nil, nullary_result_ne', unary_result_ne', binary_result_ne',
    ternary_result_ne', reshape_result_ne']

theorem frame6 (W : Valuation τ sig (Elt F)) (r : Ref sig .tc)
    (h : r ∉ [main_v34, main_v35, main_v36, main_v37, main_cst_2, main_call3_cst, main_call3_v0, main_call3_v1, main_call3_v2, main_call3_v3, main_call3_v4, main_v38]) :
    after seg6 W (no_index (Proc.devRef .tc r)) = W (Proc.devRef .tc r) := by
  simp only [List.mem_cons, List.not_mem_nil, or_false, not_or] at h
  obtain ⟨h1, h2, h3, h4, h5, h6, h7, h8, h9, h10, h11, h12⟩ := h
  unfold seg6
  simp (disch := assumption) only [after_cons, after_nil, nullary_result_ne', unary_result_ne', binary_result_ne',
    ternary_result_ne', reshape_result_ne']

theorem frame7 (W : Valuation τ sig (Elt F)) (r : Ref sig .tc)
    (h : r ∉ [main_v39, main_v40, main_v41, main_v42]) :
    after seg7 W (no_index (Proc.devRef .tc r)) = W (Proc.devRef .tc r) := by
  simp only [List.mem_cons, List.not_mem_nil, or_false, not_or] at h
  obtain ⟨h1, h2, h3, h4⟩ := h
  unfold seg7
  simp (disch := assumption) only [after_cons, after_nil, nullary_result_ne', unary_result_ne', binary_result_ne',
    ternary_result_ne', reshape_result_ne']

theorem frame8 (W : Valuation τ sig (Elt F)) (r : Ref sig .tc)
    (h : r ∉ [main_cst_3, main_v43]) :
    after seg8 W (no_index (Proc.devRef .tc r)) = W (Proc.devRef .tc r) := by
  simp only [List.mem_cons, List.not_mem_nil, or_false, not_or] at h
  obtain ⟨h1, h2⟩ := h
  unfold seg8
  simp (disch := assumption) only [after_cons, after_nil, nullary_result_ne', unary_result_ne', binary_result_ne',
    ternary_result_ne', reshape_result_ne']

/-! ## What a piece computes

Each piece's last result, read from the piece alone over any contents before it: the layer's function of the buffers
the layer reads. The gather, the sum at the destinations and the contractions stay folded; the equation never looks
inside them. -/

attribute [local irreducible] Host.gather Host.scatterAdd in
set_option maxRecDepth 4096 in
theorem s1_v1 (W : Valuation τ sig (Elt Ideal)) :
    after seg1 W (no_index (main_v1 : DevRef τ sig))
      = refXt (W (main_arg0 : DevRef τ sig)) (W (main_arg1 : DevRef τ sig)) := by
  unfold seg1
  after_results_simp
  rfl

attribute [local irreducible] Host.gather Host.scatterAdd in
set_option maxRecDepth 4096 in
theorem s2_v15 (W : Valuation τ sig (Elt Ideal)) :
    after seg2 W (no_index (main_v15 : DevRef τ sig))
      = refAgg (W (main_v1 : DevRef τ sig)) (refSrc (W (main_arg3 : DevRef τ sig))) (refDst (W (main_arg3 : DevRef τ sig))) := by
  unfold seg2
  after_results_simp
  rfl

attribute [local irreducible] Host.gather Host.scatterAdd in
set_option maxRecDepth 4096 in
theorem s3_v21 (W : Valuation τ sig (Elt Ideal)) :
    after seg3 W (no_index (main_v21 : DevRef τ sig))
      = refH1 (W (main_v1 : DevRef τ sig)) (W (main_v15 : DevRef τ sig)) (W (main_arg4 : DevRef τ sig)) (W (main_arg5 : DevRef τ sig)) := by
  unfold seg3
  after_results_simp
  rfl

attribute [local irreducible] Host.gather Host.scatterAdd in
set_option maxRecDepth 4096 in
theorem s4_v27 (W : Valuation τ sig (Elt Ideal)) :
    after seg4 W (no_index (main_v27 : DevRef τ sig))
      = refH2 (W (main_v21 : DevRef τ sig)) (W (main_arg6 : DevRef τ sig)) (W (main_arg7 : DevRef τ sig)) := by
  unfold seg4
  after_results_simp
  rfl

attribute [local irreducible] Host.gather Host.scatterAdd in
set_option maxRecDepth 4096 in
theorem s5_v33 (W : Valuation τ sig (Elt Ideal)) :
    after seg5 W (no_index (main_v33 : DevRef τ sig))
      = refY1 (W (main_v27 : DevRef τ sig)) (W (main_v1 : DevRef τ sig)) (W (main_arg8 : DevRef τ sig)) (W (main_arg9 : DevRef τ sig)) := by
  unfold seg5
  after_results_simp
  rfl

attribute [local irreducible] Host.gather Host.scatterAdd in
set_option maxRecDepth 4096 in
theorem s6_v38 (W : Valuation τ sig (Elt Ideal)) :
    after seg6 W (no_index (main_v38 : DevRef τ sig))
      = refY2 (W (main_v33 : DevRef τ sig)) (W (main_arg10 : DevRef τ sig)) (W (main_arg11 : DevRef τ sig)) := by
  unfold seg6
  after_results_simp
  rfl

attribute [local irreducible] Host.gather Host.scatterAdd in
set_option maxRecDepth 4096 in
theorem s7_v42 (W : Valuation τ sig (Elt Ideal)) :
    after seg7 W (no_index (main_v42 : DevRef τ sig))
      = refFin (W (main_v38 : DevRef τ sig)) (W (main_arg12 : DevRef τ sig)) (W (main_arg13 : DevRef τ sig)) := by
  unfold seg7
  after_results_simp
  rfl

attribute [local irreducible] Host.gather Host.scatterAdd in
set_option maxRecDepth 4096 in
theorem s8_v43 (W : Valuation τ sig (Elt Ideal)) :
    after seg8 W (no_index (main_v43 : DevRef τ sig))
      = broadcastInDim S50000x1 ![] bcast_S_S50000x1 (constant (F := Ideal) S_ .f32 0x00000000#32) := by
  unfold seg8
  after_results_simp

/-! ## The results

The fold over the whole line is the pieces' folds one after the other; the result is read from the last layer back to
the first, every buffer a layer reads carried unchanged across the pieces between its writer and the layer. -/

set_option maxRecDepth 4096 in
theorem v42_eq (V : Valuation τ sig (Elt Ideal)) :
    after ops V (main_v42 : DevRef τ sig)
      = refOut (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_split, refOut_eq]
  simp (disch := decide) only [Cert.AfterConcat.after_concat, frame1, frame2, frame3, frame4, frame5, frame6, frame7, frame8,
    s1_v1, s2_v15, s3_v21, s4_v27, s5_v33, s6_v38, s7_v42]

theorem v43_eq (V : Valuation τ sig (Elt Ideal)) :
    after ops V (main_v43 : DevRef τ sig)
      = broadcastInDim S50000x1 ![] bcast_S_S50000x1 (constant (F := Ideal) S_ .f32 0x00000000#32) := by
  rw [ops_split]
  simp only [Cert.AfterConcat.after_concat, s8_v43]

theorem arg0_eq (V : Valuation τ sig (Elt Ideal)) :
    after ops V (main_arg0 : DevRef τ sig) = V (main_arg0 : DevRef τ sig) := by
  rw [ops_split]
  simp (disch := decide) only [Cert.AfterConcat.after_concat, frame1, frame2, frame3, frame4, frame5, frame6, frame7, frame8]

theorem arg1_eq (V : Valuation τ sig (Elt Ideal)) :
    after ops V (main_arg1 : DevRef τ sig) = V (main_arg1 : DevRef τ sig) := by
  rw [ops_split]
  simp (disch := decide) only [Cert.AfterConcat.after_concat, frame1, frame2, frame3, frame4, frame5, frame6, frame7, frame8]

theorem arg2_eq (V : Valuation τ sig (Elt Ideal)) :
    after ops V (main_arg2 : DevRef τ sig) = V (main_arg2 : DevRef τ sig) := by
  rw [ops_split]
  simp (disch := decide) only [Cert.AfterConcat.after_concat, frame1, frame2, frame3, frame4, frame5, frame6, frame7, frame8]

theorem arg3_eq (V : Valuation τ sig (Elt Ideal)) :
    after ops V (main_arg3 : DevRef τ sig) = V (main_arg3 : DevRef τ sig) := by
  rw [ops_split]
  simp (disch := decide) only [Cert.AfterConcat.after_concat, frame1, frame2, frame3, frame4, frame5, frame6, frame7, frame8]

theorem arg4_eq (V : Valuation τ sig (Elt Ideal)) :
    after ops V (main_arg4 : DevRef τ sig) = V (main_arg4 : DevRef τ sig) := by
  rw [ops_split]
  simp (disch := decide) only [Cert.AfterConcat.after_concat, frame1, frame2, frame3, frame4, frame5, frame6, frame7, frame8]

theorem arg5_eq (V : Valuation τ sig (Elt Ideal)) :
    after ops V (main_arg5 : DevRef τ sig) = V (main_arg5 : DevRef τ sig) := by
  rw [ops_split]
  simp (disch := decide) only [Cert.AfterConcat.after_concat, frame1, frame2, frame3, frame4, frame5, frame6, frame7, frame8]

theorem arg6_eq (V : Valuation τ sig (Elt Ideal)) :
    after ops V (main_arg6 : DevRef τ sig) = V (main_arg6 : DevRef τ sig) := by
  rw [ops_split]
  simp (disch := decide) only [Cert.AfterConcat.after_concat, frame1, frame2, frame3, frame4, frame5, frame6, frame7, frame8]

theorem arg7_eq (V : Valuation τ sig (Elt Ideal)) :
    after ops V (main_arg7 : DevRef τ sig) = V (main_arg7 : DevRef τ sig) := by
  rw [ops_split]
  simp (disch := decide) only [Cert.AfterConcat.after_concat, frame1, frame2, frame3, frame4, frame5, frame6, frame7, frame8]

theorem arg8_eq (V : Valuation τ sig (Elt Ideal)) :
    after ops V (main_arg8 : DevRef τ sig) = V (main_arg8 : DevRef τ sig) := by
  rw [ops_split]
  simp (disch := decide) only [Cert.AfterConcat.after_concat, frame1, frame2, frame3, frame4, frame5, frame6, frame7, frame8]

theorem arg9_eq (V : Valuation τ sig (Elt Ideal)) :
    after ops V (main_arg9 : DevRef τ sig) = V (main_arg9 : DevRef τ sig) := by
  rw [ops_split]
  simp (disch := decide) only [Cert.AfterConcat.after_concat, frame1, frame2, frame3, frame4, frame5, frame6, frame7, frame8]

theorem arg10_eq (V : Valuation τ sig (Elt Ideal)) :
    after ops V (main_arg10 : DevRef τ sig) = V (main_arg10 : DevRef τ sig) := by
  rw [ops_split]
  simp (disch := decide) only [Cert.AfterConcat.after_concat, frame1, frame2, frame3, frame4, frame5, frame6, frame7, frame8]

theorem arg11_eq (V : Valuation τ sig (Elt Ideal)) :
    after ops V (main_arg11 : DevRef τ sig) = V (main_arg11 : DevRef τ sig) := by
  rw [ops_split]
  simp (disch := decide) only [Cert.AfterConcat.after_concat, frame1, frame2, frame3, frame4, frame5, frame6, frame7, frame8]

theorem arg12_eq (V : Valuation τ sig (Elt Ideal)) :
    after ops V (main_arg12 : DevRef τ sig) = V (main_arg12 : DevRef τ sig) := by
  rw [ops_split]
  simp (disch := decide) only [Cert.AfterConcat.after_concat, frame1, frame2, frame3, frame4, frame5, frame6, frame7, frame8]

theorem arg13_eq (V : Valuation τ sig (Elt Ideal)) :
    after ops V (main_arg13 : DevRef τ sig) = V (main_arg13 : DevRef τ sig) := by
  rw [ops_split]
  simp (disch := decide) only [Cert.AfterConcat.after_concat, frame1, frame2, frame3, frame4, frame5, frame6, frame7, frame8]

/-- From any memory with zero counters every weakly fair execution of the reference terminates, with its first result
    the zero array, its second the composition of the layers over the launch contents of the arguments, and every
    argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = broadcastInDim S50000x1 ![] bcast_S_S50000x1 (constant (F := Ideal) S_ .f32 0x00000000#32)
      ∧ r.2.mem ((c.tc : Thread nD τ).loc main_v42) = refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v43).trans (v43_eq _), (h c main_v42).trans (v42_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.Gin.Ref

end
-- ==== Proof.Bridge.lean ====
/-
  The two arrangements of one node's output agree.

  A sum over 129 positions is the sum over the first 128 plus the last term; a sum over 257 positions is the sum
  over positions 0..127, plus the sum over positions 128..255, plus the term at 256. With these the contraction of
  the concatenated row (x, t) against W1 is the contraction of x against W1's first 128 rows plus t times its last
  row, and the contraction of (h2, x, t) against P1 is h2 against rows 0..127 plus x against rows 128..255 plus t
  times row 256. Nothing else differs between `nodeR` and `node`; addition on the extended reals is used only up to
  the grouping the two definitions already share.
-/
import proofs.«132804_j17411797418333_2_alg».proof.Proof.Spec

noncomputable section

open scoped BigOperators

namespace Cert.Gin

open Idealize.ShloMosaic

/-- A sum over 129 positions: the first 128, then the last. -/
theorem sum129 (f : Fin 129 → EReal) :
    ∑ k : Fin 129, f k = (∑ k : Fin 128, f ⟨k.val, by omega⟩) + f ⟨128, by omega⟩ :=
  Fin.sum_univ_castSucc f

/-- A sum over 257 positions: positions 0..127, positions 128..255, then position 256. -/
theorem sum257 (f : Fin 257 → EReal) :
    ∑ k : Fin 257, f k
      = ((∑ k : Fin 128, f ⟨k.val, by omega⟩) + (∑ k : Fin 128, f ⟨128 + k.val, by omega⟩)) + f ⟨256, by omega⟩ := by
  have h1 : ∑ k : Fin 257, f k = (∑ k : Fin 256, f ⟨k.val, by omega⟩) + f ⟨256, by omega⟩ :=
    Fin.sum_univ_castSucc f
  have h2 : ∑ k : Fin 256, f ⟨k.val, by omega⟩
      = (∑ k : Fin 128, f ⟨k.val, by omega⟩) + ∑ k : Fin 128, f ⟨128 + k.val, by omega⟩ :=
    Fin.sum_univ_add (fun k : Fin (128 + 128) => f ⟨k.val, by omega⟩)
  rw [h1, h2]

/-- The row (h2, x, t) of 257 entries contracted against a column P: h2 against P's entries 0..127, the row
    (x, t)'s first 128 entries against entries 128..255, and its last entry times entry 256. -/
theorem comb_sum (h2 : Fin 128 → EReal) (xt : Fin 129 → EReal) (P : Fin 257 → EReal) :
    ∑ k : Fin 257, (if h : k.val < 128 then h2 ⟨k.val, h⟩ else xt ⟨k.val - 128, by omega⟩) * P k
      = ((∑ k : Fin 128, h2 k * P ⟨k.val, by omega⟩)
          + (∑ k : Fin 128, xt ⟨k.val, by omega⟩ * P ⟨128 + k.val, by omega⟩))
        + xt ⟨128, by omega⟩ * P ⟨256, by omega⟩ := by
  rw [sum257]
  congr 1

/-! ## The stages as functions, so that the two arrangements can be compared one stage at a time -/

/-- First layer, split form. -/
def h1K (xr ar : Fin 128 → EReal) (t a : EReal) (W1x : Fin 128 → Fin 128 → EReal) (W1t b1 : Fin 128 → EReal) :
    Fin 128 → EReal :=
  fun j => relu (((∑ k : Fin 128, (xr k + ar k) * W1x k j) + (t + a) * W1t j) + b1 j)
/-- First layer, whole form. -/
def h1R (xt ag : Fin 129 → EReal) (W1 : Fin 129 → Fin 128 → EReal) (b1 : Fin 128 → EReal) : Fin 128 → EReal :=
  fun j => relu ((∑ k : Fin 129, (xt k + ag k) * W1 k j) + b1 j)
/-- Second layer. -/
def h2K (h1 : Fin 128 → EReal) (W2 : Fin 128 → Fin 128 → EReal) (b2 : Fin 128 → EReal) : Fin 128 → EReal :=
  fun j => relu (Ideal.tanh ((∑ k : Fin 128, h1 k * W2 k j) + b2 j))
/-- Third layer, split form. -/
def y1K (h2 xr : Fin 128 → EReal) (t : EReal) (P1h P1x : Fin 128 → Fin 128 → EReal) (P1t pb1 : Fin 128 → EReal) :
    Fin 128 → EReal :=
  fun j => leaky (((((∑ k : Fin 128, h2 k * P1h k j) + (∑ k : Fin 128, xr k * P1x k j)) + t * P1t j)) + pb1 j)
/-- Third layer, whole form. -/
def y1R (h2 : Fin 128 → EReal) (xt : Fin 129 → EReal) (P1 : Fin 257 → Fin 128 → EReal) (pb1 : Fin 128 → EReal) :
    Fin 128 → EReal :=
  fun j => leaky ((∑ k : Fin 257,
    (if h : k.val < 128 then h2 ⟨k.val, h⟩ else xt ⟨k.val - 128, by omega⟩) * P1 k j) + pb1 j)
/-- Fourth layer. -/
def y2K (y1 : Fin 128 → EReal) (P2 : Fin 128 → Fin 128 → EReal) (pb2 : Fin 128 → EReal) : Fin 128 → EReal :=
  fun j => leaky ((∑ k : Fin 128, y1 k * P2 k j) + pb2 j)
/-- Last layer. -/
def y3K (y2 : Fin 128 → EReal) (P3 : Fin 128 → EReal) (pb3 : EReal) : EReal := (∑ k : Fin 128, y2 k * P3 k) + pb3

theorem node_eq_stages (xr ar : Fin 128 → EReal) (t a : EReal)
    (W1x : Fin 128 → Fin 128 → EReal) (W1t b1 : Fin 128 → EReal)
    (W2 : Fin 128 → Fin 128 → EReal) (b2 : Fin 128 → EReal)
    (P1h P1x : Fin 128 → Fin 128 → EReal) (P1t pb1 : Fin 128 → EReal)
    (P2 : Fin 128 → Fin 128 → EReal) (pb2 : Fin 128 → EReal) (P3 : Fin 128 → EReal) (pb3 : EReal) :
    node xr ar t a W1x W1t b1 W2 b2 P1h P1x P1t pb1 P2 pb2 P3 pb3
      = y3K (y2K (y1K (h2K (h1K xr ar t a W1x W1t b1) W2 b2) xr t P1h P1x P1t pb1) P2 pb2) P3 pb3 := rfl

theorem nodeR_eq_stages (xt ag : Fin 129 → EReal)
    (W1 : Fin 129 → Fin 128 → EReal) (b1 : Fin 128 → EReal)
    (W2 : Fin 128 → Fin 128 → EReal) (b2 : Fin 128 → EReal)
    (P1 : Fin 257 → Fin 128 → EReal) (pb1 : Fin 128 → EReal)
    (P2 : Fin 128 → Fin 128 → EReal) (pb2 : Fin 128 → EReal) (P3 : Fin 128 → EReal) (pb3 : EReal) :
    nodeR xt ag W1 b1 W2 b2 P1 pb1 P2 pb2 P3 pb3
      = y3K (y2K (y1R (h2K (h1R xt ag W1 b1) W2 b2) xt P1 pb1) P2 pb2) P3 pb3 := rfl

/-- The first layer: the contraction over (x, t) splits off its last term. -/
theorem h1R_eq (xt ag : Fin 129 → EReal) (W1 : Fin 129 → Fin 128 → EReal) (b1 : Fin 128 → EReal) :
    h1R xt ag W1 b1
      = h1K (fun k => xt ⟨k.val, by omega⟩) (fun k => ag ⟨k.val, by omega⟩) (xt ⟨128, by omega⟩) (ag ⟨128, by omega⟩)
          (fun k j => W1 ⟨k.val, by omega⟩ j) (fun j => W1 ⟨128, by omega⟩ j) b1 := by
  funext j
  unfold h1R h1K
  rw [sum129 (fun k => (xt k + ag k) * W1 k j)]

/-- The third layer: the contraction over (h2, x, t) splits into its three pieces. -/
theorem y1R_eq (h2 : Fin 128 → EReal) (xt : Fin 129 → EReal) (P1 : Fin 257 → Fin 128 → EReal) (pb1 : Fin 128 → EReal) :
    y1R h2 xt P1 pb1
      = y1K h2 (fun k => xt ⟨k.val, by omega⟩) (xt ⟨128, by omega⟩)
          (fun k j => P1 ⟨k.val, by omega⟩ j) (fun k j => P1 ⟨128 + k.val, by omega⟩ j) (fun j => P1 ⟨256, by omega⟩ j) pb1 := by
  funext j
  unfold y1R y1K
  rw [comb_sum h2 xt (fun k => P1 k j)]

theorem nodeR_eq_node (xt ag : Fin 129 → EReal)
    (W1 : Fin 129 → Fin 128 → EReal) (b1 : Fin 128 → EReal)
    (W2 : Fin 128 → Fin 128 → EReal) (b2 : Fin 128 → EReal)
    (P1 : Fin 257 → Fin 128 → EReal) (pb1 : Fin 128 → EReal)
    (P2 : Fin 128 → Fin 128 → EReal) (pb2 : Fin 128 → EReal)
    (P3 : Fin 128 → EReal) (pb3 : EReal) :
    nodeR xt ag W1 b1 W2 b2 P1 pb1 P2 pb2 P3 pb3
      = node (fun k => xt ⟨k.val, by omega⟩) (fun k => ag ⟨k.val, by omega⟩) (xt ⟨128, by omega⟩) (ag ⟨128, by omega⟩)
          (fun k j => W1 ⟨k.val, by omega⟩ j) (fun j => W1 ⟨128, by omega⟩ j) b1 W2 b2
          (fun k j => P1 ⟨k.val, by omega⟩ j) (fun k j => P1 ⟨128 + k.val, by omega⟩ j) (fun j => P1 ⟨256, by omega⟩ j) pb1
          P2 pb2 P3 pb3 := by
  rw [nodeR_eq_stages, node_eq_stages, h1R_eq, y1R_eq]

end Cert.Gin

end
-- ==== Proof.LibLayerRead.lean ====
/-
  Reads of a dense layer's host operations at an index, at the exact extended-real values, for rank-2 arrays.

    • two arrays laid side by side along axis 1 read, at a column, the piece that holds the column;
    • an affine layer — a `dot_general` contracting axis 1 of the left operand with axis 0 of the right one, plus a bias
      of length b broadcast to a row [1, b] and then down the rows — reads at (p, q) the sum over the contracted
      coordinate of the products, plus the bias's entry q;
    • a leaky rectifier written as a select — the operand where it is at least the broadcast zero literal, a broadcast
      scalar times the operand elsewhere — reads at an index that select on the operand's entry.
-/
import Idealize.ShloMosaic.PureOps.Ideal.Laws
import Idealize.ShloMosaic.Lib.Pipeline.Value
import Idealize.ShloMosaic.Lib.ValueIdx
import proofs.«132804_j17411797418333_2_alg».proof.Proof.LibHostRead

noncomputable section

open scoped BigOperators

namespace Cert.LayerRead

open Idealize.ShloMosaic Idealize.ShloMosaic.ValueIdx

/-! ### Two pieces laid side by side -/

section Concat2
variable {α : Type} {E n₁ n₂ n : Nat} (x₁ : (⟨2, ![E, n₁]⟩ : Shape).Idx → α) (x₂ : (⟨2, ![E, n₂]⟩ : Shape).Idx → α)
  (h : Shape.Concatenates [(⟨2, ![E, n₁]⟩ : Shape), ⟨2, ![E, n₂]⟩] ⟨2, ![E, n]⟩ 1)

/-- Two arrays side by side along axis 1, at a column of the first. -/
theorem concat2_apply_fst (p : Fin E) (c : Fin n) (hc : c.val < n₁) :
    concatenate ⟨2, ![E, n]⟩ 1 [⟨⟨2, ![E, n₁]⟩, x₁⟩, ⟨⟨2, ![E, n₂]⟩, x₂⟩] h (ix2 p c) = x₁ (ix2 p ⟨c.val, hc⟩) := by
  refine concatenate_apply_piece 1 [⟨⟨2, ![E, n₁]⟩, x₁⟩, ⟨⟨2, ![E, n₂]⟩, x₂⟩] h (ix2 p c) 0 (by show 0 < 2; omega) _ x₁ rfl rfl 0 rfl
    (ix2 p ⟨c.val, hc⟩) (fun b => ?_) ?_
  · match b with
    | ⟨0, _⟩ => exact fun _ => rfl
    | ⟨1, _⟩ => exact fun hne => absurd rfl hne
  · show 0 + c.val = c.val; omega

/-- Two arrays side by side along axis 1, at a column of the second. -/
theorem concat2_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩] h (ix2 p c) = x₂ (ix2 p ⟨c.val - n₁, h2⟩) := by
  refine concatenate_apply_piece 1 [⟨⟨2, ![E, n₁]⟩, x₁⟩, ⟨⟨2, ![E, n₂]⟩, x₂⟩] h (ix2 p c) 1 (by show 1 < 2; omega) _ x₂ rfl rfl n₁ rfl
    (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Two arrays side by side along axis 1, at any column: the first piece left of column n₁, the second from it on. -/
theorem concat2_apply (hn : n = n₁ + n₂) (p : Fin E) (c : Fin n) :
    concatenate ⟨2, ![E, n]⟩ 1 [⟨⟨2, ![E, n₁]⟩, x₁⟩, ⟨⟨2, ![E, n₂]⟩, x₂⟩] h (ix2 p c)
      = if hc : c.val < n₁ then x₁ (ix2 p ⟨c.val, hc⟩) else x₂ (ix2 p ⟨c.val - n₁, by have := c.isLt; omega⟩) := by
  by_cases hc : c.val < n₁
  · rw [dif_pos hc]; exact concat2_apply_fst x₁ x₂ h p c hc
  · rw [dif_neg hc]; exact concat2_apply_snd x₁ x₂ h p c (by omega) (by have := c.isLt; omega)

end Concat2

/-! ### An affine layer -/

/-- A host product contracting axis 1 of the left operand with axis 0 of the right one, plus a bias broadcast to a row
    and then down the rows, read at (p, q). -/
theorem affine_apply {a k b : ℕ} {φ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (h1 : (⟨1, ![b]⟩ : Shape).BroadcastsInDim ⟨2, ![1, b]⟩ ![1])
    (h2 : (⟨2, ![1, b]⟩ : Shape).BroadcastsInDim ⟨2, ![a, b]⟩ ![0, 1])
    (x : FVec Ideal ⟨2, ![a, k]⟩ φ) (w : FVec Ideal ⟨2, ![k, b]⟩ φ) (bias : FVec Ideal ⟨1, ![b]⟩ φ)
    (p : Fin a) (q : Fin b) :
    addf (Host.dotGeneral D prec x w)
        (broadcastInDim ⟨2, ![a, b]⟩ ![0, 1] h2 (broadcastInDim ⟨2, ![1, b]⟩ ![1] h1 bias)) (ix2 p q)
      = (∑ d : Fin k, x (ix2 p d) * w (ix2 d q)) + bias (ix1 q) := by
  rw [addf_apply, Cert.HostRead.dotGeneral_ix2_apply D hlc hrc hln hrn hlb hrb prec x w p q,
    Cert.HostRead.bias_rows_apply h1 h2 bias p q]

/-! ### A leaky rectifier -/

/-- The select between the operand (where it is at least the broadcast zero literal) and a broadcast scalar times the
    operand, at an index. -/
theorem leaky_apply {s : Shape} (v : FVec Ideal s .f32) (c : FVec Ideal ⟨0, ![]⟩ .f32)
    (h0 h0' : (⟨0, ![]⟩ : Shape).BroadcastsInDim s (![] : Fin 0 → Fin s.rank)) (i : s.Idx) :
    select (cmpf .oge v (broadcastInDim s ![] h0 (constant (F := Ideal) ⟨0, ![]⟩ .f32 0x00000000#32))) v
        (mulf (broadcastInDim s ![] h0' c) v) i
      = Scalar.select (Ideal.cmp .oge (v i) (Ideal.ofBits .f32 0x00000000#32)) (v i) (c ix0 * v i) := by
  rw [select_apply, cmpf_apply, mulf_apply, Cert.HostRead.scalar_bcast_apply h0, Cert.HostRead.scalar_bcast_apply h0']
  rfl

end Cert.LayerRead

end
-- ==== Proof.RefStage.lean ====
/-
  The reference's layers read at a node.

  The reference's result is a composition of layers, each a function of whole arrays (the module that states the
  reference as a pure term names them). Read at row n, every layer is the matching stage of one node's output:
    • the rows with the time appended read, at column k < 128, the feature x[n, k], and at column 128 the time t[n];
    • the two columns of start indices are the arrays srcArr and dstArr of the edge list;
    • the aggregated rows read, at (n, k), zero plus the sum over the edges landing on n of column k at the edge's source;
    • each affine layer reads the contraction over the row plus the bias, each nonlinearity acts entry by entry, and
      the 257 wide row of the third layer is the second layer's row followed by the row (x, t).
-/
import proofs.«132804_j17411797418333_2_alg».proof.Proof.RefTerm
import proofs.«132804_j17411797418333_2_alg».proof.Proof.Spec
import proofs.«132804_j17411797418333_2_alg».proof.Proof.Bridge
import proofs.«132804_j17411797418333_2_alg».proof.Proof.IdxColumns
import proofs.«132804_j17411797418333_2_alg».proof.Proof.LibLayerRead
import proofs.«132804_j17411797418333_2_alg».proof.Proof.LibBridgeRead
import proofs.«132804_j17411797418333_2_alg».proof.Proof.LibHostRead
import proofs.«132804_j17411797418333_2_alg».proof.Proof.LibRowGather
import proofs.«132804_j17411797418333_2_alg».proof.Proof.LibRowScatterAdd

noncomputable section

open scoped BigOperators

namespace Cert.Gin.Ref

open Cert.ReferenceIdeal Cert.ReferenceIdeal.Gen Idealize.ShloMosaic Idealize.ShloMosaic.ValueIdx

/-! ### The rows with the time appended -/

/-- Left of column 128 the appended rows are the feature rows. -/
theorem refXt_apply_lt (x : FVec Ideal S50000x128 .f32) (t : FVec Ideal S50000 .f32) (n : Fin 50000) (k : Fin 129)
    (hk : k.val < 128) : refXt x t (ix2 n k) = x (ix2 n ⟨k.val, hk⟩) :=
  Cert.LayerRead.concat2_apply_fst x _ concatenates_S50000x128_S50000x1_S50000x129_d1 n k hk

/-- Column 128 of the appended rows is the time. -/
theorem refXt_apply_last (x : FVec Ideal S50000x128 .f32) (t : FVec Ideal S50000 .f32) (n : Fin 50000) (k : Fin 129)
    (hk : ¬ k.val < 128) : refXt x t (ix2 n k) = t (ix1 n) := by
  have h2 : k.val - 128 < 1 := by have := k.isLt; omega
  refine (Cert.LayerRead.concat2_apply_snd x _ concatenates_S50000x128_S50000x1_S50000x129_d1 n k (by omega) h2).trans ?_
  rw [show (⟨k.val - 128, h2⟩ : Fin 1) = 0 from Subsingleton.elim _ _]
  exact Cert.BridgeRead.column_bcast_apply t _ n

/-! ### The start indices -/

theorem refSrc_eq (ei : IVec S2x800000 32) : refSrc ei = Cert.Gin.srcArr ei :=
  Cert.Gin.Idx.srcCol_eq ei slices_S2x800000_S1x800000_0_0 shapeCasts_S1x800000_S800000 bcast_S_S800000
    bcast_S800000_S800000x1_0

theorem refDst_eq (ei : IVec S2x800000 32) : refDst ei = Cert.Gin.dstArr ei :=
  Cert.Gin.Idx.dstCol_eq ei slices_S2x800000_S1x800000_1_0 shapeCasts_S1x800000_S800000 bcast_S800000_S800000x1_0

/-! ### The aggregated rows -/

/-- The aggregated rows at (n, k): zero plus the sum, over the edges landing on n, of column k at the edge's source. -/
theorem refAgg_apply (xt : FVec Ideal S50000x129 .f32) (src dst : IVec S800000x1 32) (n : Fin 50000) (k : Fin 129) :
    refAgg xt src dst (ix2 n k) = Cert.Gin.aggCol src dst (fun r => xt (ix2 r k)) n := by
  refine (Cert.RowScatter.host_scatterAdd_rows_apply (N := 50000) (P := 800000) (C := 129)
    scatter_S50000x129_S800000x1_S800000x129_1_0_0_1_wf _ dst _ n k).trans ?_
  unfold Cert.Gin.aggCol
  refine congrArg₂ (· + ·) ((Cert.HostRead.scalar_bcast_apply _ _ _).trans rfl) (Finset.sum_congr rfl fun e _ => ?_)
  exact Cert.RowGather.gather_rows_apply (by norm_num) gather_S50000x129_S800000x1_S800000x129_1_0_n_n_0_1_1129_wf xt src e k

/-! ### The layers -/

/-- The first layer's row n. -/
theorem refH1_row (xt agg : FVec Ideal S50000x129 .f32) (W1 : FVec Ideal S129x128 .f32) (b1 : FVec Ideal S128 .f32)
    (n : Fin 50000) :
    (fun j : Fin 128 => refH1 xt agg W1 b1 (ix2 n j))
      = Cert.Gin.h1R (fun k => xt (ix2 n k)) (fun k => agg (ix2 n k)) (fun k j => W1 (ix2 k j)) (fun j => b1 (ix1 j)) := by
  funext j
  refine (Cert.BridgeRead.relu_apply _ _ (ix2 n j)).trans ?_
  unfold Cert.Gin.h1R Cert.Gin.relu
  refine congrArg (fun v => max v Cert.Gin.z0) ?_
  exact Cert.LayerRead.affine_apply _ rfl rfl rfl rfl rfl rfl none _ _ (addf xt agg) W1 b1 n j

/-- The second layer's row n. -/
theorem refH2_row (h1 : FVec Ideal S50000x128 .f32) (W2 : FVec Ideal S128x128 .f32) (b2 : FVec Ideal S128 .f32)
    (n : Fin 50000) :
    (fun j : Fin 128 => refH2 h1 W2 b2 (ix2 n j))
      = Cert.Gin.h2K (fun k => h1 (ix2 n k)) (fun k j => W2 (ix2 k j)) (fun j => b2 (ix1 j)) := by
  funext j
  refine (Cert.BridgeRead.relu_apply _ _ (ix2 n j)).trans ?_
  unfold Cert.Gin.h2K Cert.Gin.relu
  refine congrArg (fun v => max (Ideal.tanh v) Cert.Gin.z0) ?_
  exact Cert.LayerRead.affine_apply _ rfl rfl rfl rfl rfl rfl none _ _ h1 W2 b2 n j

/-- The third layer's row n: the 257 wide row is the second layer's row followed by the row (x, t). -/
theorem refY1_row (h2 : FVec Ideal S50000x128 .f32) (xt : FVec Ideal S50000x129 .f32) (P1 : FVec Ideal S257x128 .f32)
    (pb1 : FVec Ideal S128 .f32) (n : Fin 50000) :
    (fun j : Fin 128 => refY1 h2 xt P1 pb1 (ix2 n j))
      = Cert.Gin.y1R (fun k => h2 (ix2 n k)) (fun k => xt (ix2 n k)) (fun k j => P1 (ix2 k j)) (fun j => pb1 (ix1 j)) := by
  funext j
  refine (Cert.LayerRead.leaky_apply _ _ _ _ (ix2 n j)).trans ?_
  unfold Cert.Gin.y1R Cert.Gin.leaky
  refine congrArg (fun v => Scalar.select (Ideal.cmp .oge v Cert.Gin.z0) v (Cert.Gin.slope * v)) ?_
  refine (Cert.LayerRead.affine_apply _ rfl rfl rfl rfl rfl rfl none _ _ _ P1 pb1 n j).trans ?_
  refine congrArg (· + pb1 (ix1 j)) (Finset.sum_congr rfl fun k _ => ?_)
  refine congrArg (· * P1 (ix2 k j)) ?_
  exact Cert.LayerRead.concat2_apply h2 xt concatenates_S50000x128_S50000x129_S50000x257_d1 rfl n k

/-- The fourth layer's row n. -/
theorem refY2_row (y1 : FVec Ideal S50000x128 .f32) (P2 : FVec Ideal S128x128 .f32) (pb2 : FVec Ideal S128 .f32)
    (n : Fin 50000) :
    (fun j : Fin 128 => refY2 y1 P2 pb2 (ix2 n j))
      = Cert.Gin.y2K (fun k => y1 (ix2 n k)) (fun k j => P2 (ix2 k j)) (fun j => pb2 (ix1 j)) := by
  funext j
  refine (Cert.LayerRead.leaky_apply _ _ _ _ (ix2 n j)).trans ?_
  unfold Cert.Gin.y2K Cert.Gin.leaky
  refine congrArg (fun v => Scalar.select (Ideal.cmp .oge v Cert.Gin.z0) v (Cert.Gin.slope * v)) ?_
  exact Cert.LayerRead.affine_apply _ rfl rfl rfl rfl rfl rfl none _ _ y1 P2 pb2 n j

/-- The last layer at row n. -/
theorem refFin_at (y2 : FVec Ideal S50000x128 .f32) (P3 : FVec Ideal S128x1 .f32) (pb3 : FVec Ideal S1 .f32)
    (n : Fin 50000) :
    refFin y2 P3 pb3 (ix2 n (0 : Fin 1))
      = Cert.Gin.y3K (fun k => y2 (ix2 n k)) (fun k => P3 (ix2 k 0)) (pb3 (ix1 0)) :=
  Cert.LayerRead.affine_apply _ rfl rfl rfl rfl rfl rfl none _ _ y2 P3 pb3 n 0

end Cert.Gin.Ref

end
-- ==== Proof.RefValue.lean ====
/-
  The reference's result is the specified output array.

  At node n the reference's result is the composition of its layers read at row n (each layer's row is the matching
  stage of one node's output), that is `nodeR` of the row (x, t)[n, ·] and the aggregated row; `nodeR` is `node` of the
  split rows and weights; and the split rows are the arguments of `outAt`: the row (x, t) is x[n, ·] followed by t[n],
  and the aggregated row at column k is the sum over the edges landing on n of column k of (x, t) at the edge's source,
  column k of (x, t) being column k of x for k < 128 and t for k = 128.
-/
import proofs.«132804_j17411797418333_2_alg».proof.Proof.RefStage

noncomputable section

open scoped BigOperators

namespace Cert.Gin.Ref

open Cert.ReferenceIdeal Cert.ReferenceIdeal.Gen Idealize.ShloMosaic Idealize.ShloMosaic.ValueIdx

/-- The reference's result at node n: `nodeR` of row n of (x, t) and row n of the aggregated rows. -/
theorem refOut_at (x : FVec Ideal S50000x128 .f32) (t : FVec Ideal S50000 .f32) (ei : IVec S2x800000 32)
    (W1 : FVec Ideal S129x128 .f32) (b1 : FVec Ideal S128 .f32) (W2 : FVec Ideal S128x128 .f32) (b2 : FVec Ideal S128 .f32)
    (P1 : FVec Ideal S257x128 .f32) (pb1 : FVec Ideal S128 .f32) (P2 : FVec Ideal S128x128 .f32) (pb2 : FVec Ideal S128 .f32)
    (P3 : FVec Ideal S128x1 .f32) (pb3 : FVec Ideal S1 .f32) (n : Fin 50000) :
    refOut x t ei W1 b1 W2 b2 P1 pb1 P2 pb2 P3 pb3 (ix2 n (0 : Fin 1))
      = Cert.Gin.nodeR (fun k => refXt x t (ix2 n k))
          (fun k => refAgg (refXt x t) (refSrc ei) (refDst ei) (ix2 n k))
          (fun k j => W1 (ix2 k j)) (fun j => b1 (ix1 j)) (fun k j => W2 (ix2 k j)) (fun j => b2 (ix1 j))
          (fun k j => P1 (ix2 k j)) (fun j => pb1 (ix1 j)) (fun k j => P2 (ix2 k j)) (fun j => pb2 (ix1 j))
          (fun k => P3 (ix2 k 0)) (pb3 (ix1 0)) := by
  rw [refOut_eq, refFin_at, refY2_row, refY1_row, refH2_row, refH1_row, Cert.Gin.nodeR_eq_stages]

/-- `node` at equal rows and times. -/
theorem node_congr {xr xr' ar ar' : Fin 128 → EReal} {t t' a a' : EReal} (hx : xr = xr') (ha : ar = ar') (ht : t = t')
    (hat : a = a') (W1x : Fin 128 → Fin 128 → EReal) (W1t b1 : Fin 128 → EReal)
    (W2 : Fin 128 → Fin 128 → EReal) (b2 : Fin 128 → EReal)
    (P1h P1x : Fin 128 → Fin 128 → EReal) (P1t pb1 : Fin 128 → EReal)
    (P2 : Fin 128 → Fin 128 → EReal) (pb2 : Fin 128 → EReal) (P3 : Fin 128 → EReal) (pb3 : EReal) :
    Cert.Gin.node xr ar t a W1x W1t b1 W2 b2 P1h P1x P1t pb1 P2 pb2 P3 pb3
      = Cert.Gin.node xr' ar' t' a' W1x W1t b1 W2 b2 P1h P1x P1t pb1 P2 pb2 P3 pb3 := by
  subst hx ha ht hat; rfl

/-- Column k < 128 of the aggregated rows aggregates column k of the features. -/
theorem refAgg_apply_lt (x : FVec Ideal S50000x128 .f32) (t : FVec Ideal S50000 .f32) (ei : IVec S2x800000 32)
    (n : Fin 50000) (k : Fin 129) (hk : k.val < 128) :
    refAgg (refXt x t) (refSrc ei) (refDst ei) (ix2 n k)
      = Cert.Gin.aggCol (Cert.Gin.srcArr ei) (Cert.Gin.dstArr ei) (fun r => x (ix2 r ⟨k.val, hk⟩)) n := by
  rw [refAgg_apply, refSrc_eq, refDst_eq]
  exact congrArg (fun f => Cert.Gin.aggCol (Cert.Gin.srcArr ei) (Cert.Gin.dstArr ei) f n)
    (funext fun r => refXt_apply_lt x t r k hk)

/-- Column 128 of the aggregated rows aggregates the times. -/
theorem refAgg_apply_last (x : FVec Ideal S50000x128 .f32) (t : FVec Ideal S50000 .f32) (ei : IVec S2x800000 32)
    (n : Fin 50000) (k : Fin 129) (hk : ¬ k.val < 128) :
    refAgg (refXt x t) (refSrc ei) (refDst ei) (ix2 n k)
      = Cert.Gin.aggCol (Cert.Gin.srcArr ei) (Cert.Gin.dstArr ei) (fun r => t (ix1 r)) n := by
  rw [refAgg_apply, refSrc_eq, refDst_eq]
  exact congrArg (fun f => Cert.Gin.aggCol (Cert.Gin.srcArr ei) (Cert.Gin.dstArr ei) f n)
    (funext fun r => refXt_apply_last x t r k hk)

/-- THE REFERENCE'S RESULT is the specified output array. -/
theorem refOut_eq_out (x : FVec Ideal S50000x128 .f32) (t : FVec Ideal S50000 .f32) (ei : IVec S2x800000 32)
    (W1 : FVec Ideal S129x128 .f32) (b1 : FVec Ideal S128 .f32) (W2 : FVec Ideal S128x128 .f32) (b2 : FVec Ideal S128 .f32)
    (P1 : FVec Ideal S257x128 .f32) (pb1 : FVec Ideal S128 .f32) (P2 : FVec Ideal S128x128 .f32) (pb2 : FVec Ideal S128 .f32)
    (P3 : FVec Ideal S128x1 .f32) (pb3 : FVec Ideal S1 .f32) :
    refOut x t ei W1 b1 W2 b2 P1 pb1 P2 pb2 P3 pb3 = Cert.Gin.out x t ei W1 b1 W2 b2 P1 pb1 P2 pb2 P3 pb3 := by
  funext j
  obtain ⟨n, rfl⟩ : ∃ n : Fin 50000, j = ix2 n (0 : Fin 1) := ⟨j 0, Cert.Gin.Idx.eq_ix2_col j⟩
  rw [Cert.Gin.out_apply]
  refine ((refOut_at x t ei W1 b1 W2 b2 P1 pb1 P2 pb2 P3 pb3 n).trans (Cert.Gin.nodeR_eq_node _ _ _ _ _ _ _ _ _ _ _ _)).trans ?_
  exact node_congr
    (funext fun k : Fin 128 => refXt_apply_lt x t n ⟨k.val, by omega⟩ k.isLt)
    (funext fun k : Fin 128 => refAgg_apply_lt x t ei n ⟨k.val, by omega⟩ k.isLt)
    (refXt_apply_last x t n ⟨128, by omega⟩ (by simp))
    (refAgg_apply_last x t ei n ⟨128, by omega⟩ (by simp))
    _ _ _ _ _ _ _ _ _ _ _ _ _

end Cert.Gin.Ref

end
-- ==== Proof.lean ====
/-
  A graph network layer fused into one kernel, against its reference.

  The kernel program aggregates each node's feature row and time over its incoming edges with host operations
  (a gather by the edge's source and a scatter-add at its destination, of the 128 feature columns and of the time
  column separately), then runs one region over the nodes, 5000 per grid point, computing
      h1 = relu ((x + agg x) W1[0:128] + (t + agg t) W1[128] + b1),   h2 = relu (tanh (h1 W2 + b2)),
      y1 = leaky (h2 P1[0:128] + x P1[128:256] + t P1[256] + pb1),   y2 = leaky (y1 P2 + pb2),   y = y2 P3 + pb3,
  and returns a zero array and y. The reference concatenates (x, t) into rows of 129 entries, aggregates those
  rows at once, and contracts the 129 and 257 wide rows (x, t) + agg and (h2, x, t) against W1 and P1 whole.

  At the extended reals the two are one function of the arguments, `Cert.Gin.out`: a gather and a scatter-add act
  column by column over the same edges, whatever the table's width; a sum over 129 or 257 positions splits into
  the sums over its pieces; a change of float format is the identity; and the five products, relu, tanh and the
  leaky slope are the same operations on both sides, with the same literals. Only commutativity and associativity
  of addition are used, so the precondition (finite inputs) is never opened.

  The kernel's run is `Cert.Gin.KRun.run` (the generated frame run, its output array read block by block), the
  reference's `Cert.Gin.Ref.run` (its host operations in order, the outlined relu and leaky functions inlined) with
  `Cert.Gin.Ref.refOut_eq_out` (its result term read node by node). The frames of the two kernel programs are the
  generated ones; the reference's frame is its run with the results dropped; the idealization rewrote nothing.
-/
import proofs.«132804_j17411797418333_2_alg».proof.Defs
import proofs.«132804_j17411797418333_2_alg».proof.Proof.Gen.Kernel
import proofs.«132804_j17411797418333_2_alg».proof.Proof.Gen.Kernel.Frame
import proofs.«132804_j17411797418333_2_alg».proof.Proof.Gen.KernelIdeal
import proofs.«132804_j17411797418333_2_alg».proof.Proof.Gen.KernelIdeal.Frame
import proofs.«132804_j17411797418333_2_alg».proof.Proof.Gen.ReferenceIdeal
import proofs.«132804_j17411797418333_2_alg».proof.Proof.Gen.Pre_finite_inputs
import proofs.«132804_j17411797418333_2_alg».proof.Proof.KernelRun
import proofs.«132804_j17411797418333_2_alg».proof.Proof.RefRun
import proofs.«132804_j17411797418333_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.Gin.Ref.run m ρ)

/-- Both programs end with a zero array and the specification's output array of their arguments; the arguments
    agree, so the results do. -/
theorem algebraic : Cert.algebraic_KernelIdeal_ReferenceIdeal := by
  intro m ρ m' ρ' _ hagree
  refine ⟨_, _, Cert.Gin.KRun.run m ρ, ?_⟩
  refine (θ_run Cert.ReferenceIdeal.defs _ _).mono (fun _ h c => ?_) (Cert.Gin.Ref.run m' ρ')
  obtain ⟨h43, h42, hargs⟩ := h c
  refine ⟨h43, h42.trans ?_, hargs⟩
  obtain ⟨a0, a1, a2, a3, a4, a5, a6, a7, a8, a9, a10, a11, a12, a13⟩ := hagree c
  rw [Cert.Gin.Ref.refOut_eq_out, a0, a1, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
